-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S10000x128 : Shape := ⟨2, ![10000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 130
  | .vmem => 27
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S1x1600000, .i32⟩
  | 8 => ⟨S1600000, .i32⟩
  | 9 => ⟨S1x1600000, .i32⟩
  | 10 => ⟨S1600000, .i32⟩
  | 11 => ⟨S128x128, .f32⟩
  | 12 => ⟨S100000x128, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .i1⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S1600000x1, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S1x128, .f32⟩
  | 62 => ⟨S1x128, .f32⟩
  | 63 => ⟨S1x128, .f32⟩
  | 64 => ⟨S_, .f32⟩
  | 65 => ⟨S1x128, .f32⟩
  | 66 => ⟨S1x128, .f32⟩
  | 67 => ⟨S_, .f32⟩
  | 68 => ⟨S1x128, .f32⟩
  | 69 => ⟨S1x128, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S1x128, .f32⟩
  | 76 => ⟨S1x128, .f32⟩
  | 77 => ⟨S100000x128, .f32⟩
  | 78 => ⟨S128x128, .f32⟩
  | 79 => ⟨S100000x128, .f32⟩
  | 80 => ⟨S_, .f32⟩
  | 81 => ⟨S100000, .f32⟩
  | 82 => ⟨S1600000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000, .f32⟩
  | 110 => ⟨S1600000, .f32⟩
  | 111 => ⟨S1600000, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S1600000x1, .f32⟩
  | 122 => ⟨S1600000x128, .f32⟩
  | 123 => ⟨S1600000x128, .f32⟩
  | 124 => ⟨S_, .f32⟩
  | 125 => ⟨S100000x128, .f32⟩
  | 126 => ⟨S1600000x1, .i32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S128x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S1x128, .f32⟩
  | .local _ .vmem, ⟨25, _⟩ => ⟨S10000x128, .f32⟩
  | .local _ .vmem, ⟨26, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43_0 : Ref sig .tc := ⟨.hbm, 62, rfl⟩
abbrev main_v43_1 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_call1_v0 : Ref sig .tc := ⟨.hbm, 89, rfl⟩
abbrev main_call1_v1 : Ref sig .tc := ⟨.hbm, 90, rfl⟩
abbrev main_v63 : Ref sig .tc := ⟨.hbm, 91, rfl⟩
abbrev main_c_14 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_16 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_18 : Ref sig .tc := ⟨.hbm, 112, rfl⟩
abbrev main_v80 : Ref sig .tc := ⟨.hbm, 113, rfl⟩
abbrev main_v81 : Ref sig .tc := ⟨.hbm, 114, rfl⟩
abbrev main_c_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_20 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg4_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem4_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S10000x128_S10000x128 : S10000x128.ShapeCasts S10000x128
  shapeCasts_S1x128_S1x128 : S1x128.ShapeCasts S1x128
  broadcasts_S1x128_S10000x128 : S1x128.Broadcasts S10000x128
  reduces_S10000x128_S128 : S10000x128.Reduces [0] S128
  bcast_S_S1x128 : S_.BroadcastsInDim S1x128 (![] : Fin 0 → Fin S1x128.rank)
  dot_S10000x128_S128x128_S10000x128_1_0_0_1_n_n_wf : DotDims.WF S10000x128 S128x128 S10000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S100000x128.size a
  hwx2_4 : ∀ i : grid2.Coords, EltTy.bits .f32 = 32 ∨ (Rect.block (s := S100000x128) S10000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v41) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S10000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v54) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v92) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v94) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S1x1600000, .i32⟩
  | 8 => ⟨S1600000, .i32⟩
  | 9 => ⟨S1x1600000, .i32⟩
  | 10 => ⟨S1600000, .i32⟩
  | 11 => ⟨S128x128, .f32⟩
  | 12 => ⟨S100000x128, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .i1⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S1600000x1, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S128, .f32⟩
  | 66 => ⟨S_, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S100000x128, .f32⟩
  | 73 => ⟨S_, .f32⟩
  | 74 => ⟨S128, .f32⟩
  | 75 => ⟨S_, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S_, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S128x128, .f32⟩
  | 92 => ⟨S100000x128, .f32⟩
  | 93 => ⟨S_, .f32⟩
  | 94 => ⟨S100000, .f32⟩
  | 95 => ⟨S1600000x1, .i32⟩
  | 96 => ⟨S100000, .f32⟩
  | 97 => ⟨S_, .f32⟩
  | 98 => ⟨S100000, .f32⟩
  | 99 => ⟨S100000, .i1⟩
  | 100 => ⟨S100000, .f32⟩
  | 101 => ⟨S_, .f32⟩
  | 102 => ⟨S_, .f32⟩
  | 103 => ⟨S100000, .f32⟩
  | 104 => ⟨S100000, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000, .f32⟩
  | 123 => ⟨S1600000, .f32⟩
  | 124 => ⟨S1600000, .f32⟩
  | 125 => ⟨S_, .i32⟩
  | 126 => ⟨S1600000, .i32⟩
  | 127 => ⟨S1600000, .i1⟩
  | _ => ⟨S100000x128, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x128, .f32⟩
  | 6 => ⟨S1600000x1, .f32⟩
  | 7 => ⟨S1600000x128, .f32⟩
  | 8 => ⟨S1600000x128, .f32⟩
  | 9 => ⟨S_, .f32⟩
  | 10 => ⟨S100000x128, .f32⟩
  | 11 => ⟨S1600000x1, .i32⟩
  | 12 => ⟨S100000x128, .f32⟩
  | 13 => ⟨S1x128, .f32⟩
  | 14 => ⟨S100000x128, .f32⟩
  | 15 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_15 : Ref sig .tc := ⟨.hbm, 101, rfl⟩
abbrev main_call2_v0 : Ref sig .tc := ⟨.hbm, 102, rfl⟩
abbrev main_call2_v1 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_c_17 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_c_19 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_20 : Ref sig .tc := ⟨.hbm, 125, rfl⟩
abbrev main_v90 : Ref sig .tc := ⟨.hbm, 126, rfl⟩
abbrev main_v91 : Ref sig .tc := ⟨.hbm, 127, rfl⟩
abbrev main_c_21 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_22 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The network both programs compute, as whole-array functions over the extended reals.

  A graph-convolution layer sends node features h (one row per node) to the array whose row for node v is the sum,
  over the edges e that end at v, of (dinv(src e) · dinv(dst e) · w e) times row src(e) of h, where dinv is the
  guarded reciprocal square root of the weighted in-degree. Everything in it except the gather of rows of h depends on
  the edge list and the edge weights only, so it is carried here as ONE function `conv` of (h, edges, weights), built
  from the reference's own stages of the edge list; neither program's proof has to open it, except to see that it
  maps real arrays to real arrays.

  Between the two layers stands a batch normalisation over the node axis followed by a positive part: with
  T = conv(...) + b (the bias added to every row), mean μ(j) = Σ_r T(r,j) / n and variance
  σ²(j) = Σ_r (T(r,j) − μ(j))² / n, the output is max((T − μ) · rsqrt(σ² + ε), 0). `bnRelu` is that function of T,
  in the reference's spelling.
-/
import proofs.«163066_j80083960201233_1_alg».proof.Proof.Gen.ReferenceIdeal.Read

noncomputable section

namespace Cert.GcnNet

open Idealize.ShloMosaic Cert.ReferenceIdeal Cert.ReferenceIdeal.Gen Cert.ReferenceIdeal.Read

/-- Node features: one row of 128 channels per node. -/
abbrev Nodes : Type := FVec Ideal S100000x128 .f32
/-- The edge list (sources in row 0, destinations in row 1) and the edge weights. -/
abbrev Edges : Type := (⟨S2x1600000, .i32⟩ : BufTy).Contents (Elt Ideal)
abbrev Weights : Type := FVec Ideal S1600000 .f32

/-- The normalised aggregation of node features `h` along the edges: row v of the result is the sum over the edges
    ending at v of the edge's coefficient times the source node's row of `h`. -/
def conv (h : Nodes) (e : Edges) (w : Weights) : Nodes :=
  Host.scatterAdd scatter_S100000x128_S1600000x1_S1600000x128_1_0_0_1 (val_main_v39 (F := Ideal)) (val_main_v40 (F := Ideal) e)
    (mulf (Host.gather gather_S100000x128_S1600000x1_S1600000x128_1_0_n_n_0_1_1128 h (val_main_v34 (F := Ideal) e))
      (val_main_v37 (F := Ideal) e w))

/-- A length-128 vector repeated down the 100000 rows. -/
def rowsOf (v : FVec Ideal S128 .f32) : Nodes :=
  broadcastInDim S100000x128 ![0, 1] bcast_S1x128_S100000x128_0_1 (broadcastInDim S1x128 ![1] bcast_S128_S1x128_1 v)

/-- The sum down each column. -/
def colSum (T : Nodes) : FVec Ideal S128 .f32 :=
  Host.reduceAdd T (constant (F := Ideal) S_ .f32 0x00000000#32) reducesTo_S100000x128_S128_d0 h_S_

/-- The node count, 100000, in every channel. -/
def count : FVec Ideal S128 .f32 := broadcastInDim S128 ![] bcast_S_S128 (constant (F := Ideal) S_ .f32 0x47C35000#32)

/-- The column means. -/
def meanOf (T : Nodes) : FVec Ideal S128 .f32 := Host.divf (colSum T) count

/-- The deviations from the column means. -/
def centred (T : Nodes) : Nodes := subf T (rowsOf (meanOf T))

/-- The column means of the squared deviations. -/
def varOf (T : Nodes) : FVec Ideal S128 .f32 := Host.divf (colSum (mulf (centred T) (centred T))) count

/-- Batch normalisation over the node axis, then the positive part. -/
def bnRelu (T : Nodes) : Nodes :=
  maximumf (mulf (centred T) (rowsOf (Host.rsqrt (addf (varOf T)
      (broadcastInDim S128 ![] bcast_S_S128 (constant (F := Ideal) S_ .f32 0x3727C5AC#32))))))
    (broadcastInDim S100000x128 ![] bcast_S_S100000x128 (constant (F := Ideal) S_ .f32 0x00000000#32))

/-- A dense layer without bias: h · Wᵀ. -/
def dense (h : Nodes) (W : FVec Ideal S128x128 .f32) : Nodes :=
  Host.dotGeneral dot_S100000x128_S128x128_S100000x128_1_0_0_1_n_n none h (transpose S128x128 [1, 0] W transposes_S128x128_S128x128_1_0)

/-- The whole network. -/
def net (x : Nodes) (e : Edges) (w : Weights) (W0 : FVec Ideal S128x128 .f32) (b0 : FVec Ideal S128 .f32)
    (W1 : FVec Ideal S128x128 .f32) (b1 : FVec Ideal S128 .f32) : Nodes :=
  addf (conv (dense (bnRelu (addf (conv (dense x W0) e w) (rowsOf b0))) W1) e w) (rowsOf b1)

/-- The reference's last stage is the network. -/
theorem reference_eq (x : Nodes) (e : Edges) (w : Weights) (W0 : FVec Ideal S128x128 .f32) (b0 : FVec Ideal S128 .f32)
    (W1 : FVec Ideal S128x128 .f32) (b1 : FVec Ideal S128 .f32) :
    val_main_v105 (F := Ideal) x e w W0 b0 W1 b1 = net x e w W0 b0 W1 b1 := rfl

end Cert.GcnNet

end
-- ==== Proof.Args.lean ====
/-
  The seven argument arrays of the kernel program on a core, at the types the network is stated over: node features,
  the edge list, the edge weights, and the two layers' weight matrices and biases.
-/
import proofs.«163066_j80083960201233_1_alg».proof.KernelIdeal
import proofs.«163066_j80083960201233_1_alg».proof.Proof.Gen.KernelIdeal
import proofs.«163066_j80083960201233_1_alg».proof.Proof.Spec

noncomputable section

namespace Cert.KernelIdeal.Args

open Cert.KernelIdeal Idealize.ShloMosaic Idealize.ShloMosaic.TcCoe Idealize.SL.Sem Cert.GcnNet

variable (m : (ℓ : Loc nD τ sig) → Buf (Elt Ideal) ℓ) (c : Dev nD)

abbrev a0 : Nodes := m ((c.tc : Thread nD τ).loc main_arg0)
abbrev a1 : Edges := m ((c.tc : Thread nD τ).loc main_arg1)
abbrev a2 : Weights := m ((c.tc : Thread nD τ).loc main_arg2)
abbrev a3 : FVec Ideal Cert.ReferenceIdeal.S128x128 .f32 := m ((c.tc : Thread nD τ).loc main_arg3)
abbrev a4 : FVec Ideal Cert.ReferenceIdeal.S128 .f32 := m ((c.tc : Thread nD τ).loc main_arg4)
abbrev a5 : FVec Ideal Cert.ReferenceIdeal.S128x128 .f32 := m ((c.tc : Thread nD τ).loc main_arg5)
abbrev a6 : FVec Ideal Cert.ReferenceIdeal.S128 .f32 := m ((c.tc : Thread nD τ).loc main_arg6)

end Cert.KernelIdeal.Args

end
-- ==== Proof.KernelRun.lean ====
/-
  The kernel program's run with its result named.

  @main is fourteen segments: nine stretches of host operations and five pallas_call regions. Every weakly fair
  execution from a memory with zero counters terminates without a fault; at the end every unscoped buffer of a core
  holds the last boundary's contents — the fold of the host stretches and of the regions' write-backs over the launch
  memory — so the result buffer holds that fold read at the result, and every argument array is as launched.
-/
import proofs.«163066_j80083960201233_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents read at the result, and the argument arrays as launched. -/
theorem run_named : θ_run defs (onTc (τ := τ) (main (F := F))) ⟨m, fun _ => 0, ρ⟩ (fun r => ∀ c : Dev nD,
      r.2.mem ((c.tc : Thread nD τ).loc main_v94) = W14 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v94 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c)⟩)

end Cert.KernelIdeal.Run

end
-- ==== Proof.LibERealSums.lean ====
/-
  Finite sums of real numbers inside the extended reals. The inclusion of the reals into [−∞, +∞] carries a finite
  sum to the sum of the inclusions (by induction on the index set, from the two-term case), so a sum of products of
  included reals is the included sum of the real products.
-/
import Idealize.ShloMosaic.PureOps.Ideal

noncomputable section

namespace Cert.Attn

/-- The inclusion ℝ → [−∞, +∞] commutes with a finite sum. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ k, f k : ℝ) : EReal) = ∑ k, ((f k : ℝ) : EReal) := coe_sum _ _

/-- A sum of products of included reals is the included sum of the products. -/
theorem sum_coe_mul_coe {ι : Type} [Fintype ι] (f g : ι → ℝ) :
    ∑ k, ((f k : ℝ) : EReal) * ((g k : ℝ) : EReal) = ((∑ k, f k * g k : ℝ) : EReal) := by
  rw [coe_sum_univ]
  exact Finset.sum_congr rfl fun k _ => (EReal.coe_mul _ _).symm

/-- The maximum, from −∞, of finitely many included reals over a nonempty index set is an included real. -/
theorem fold_max_coe_exists {ι : Type} (s : Finset ι) (hs : s.Nonempty) (f : ι → ℝ) :
    ∃ ρ : ℝ, s.fold max (⊥ : EReal) (fun k => ((f k : ℝ) : EReal)) = (ρ : EReal) := by
  classical
  induction hs using Finset.Nonempty.cons_induction with
  | singleton a => exact ⟨f a, by simp⟩
  | cons a s ha hs ih =>
    obtain ⟨ρ, hρ⟩ := ih
    refine ⟨max (f a) ρ, ?_⟩
    rw [Finset.fold_cons, hρ]
    exact (EReal.coe_strictMono.monotone.map_max).symm

end Cert.Attn

end
-- ==== Proof.LibSoftmaxShift.lean ====
/-
  The softmax of a rank-one sum, on the extended reals [−∞, +∞].

  If the logits of a row are e j = a + d j with a and every d j real numbers, then the row's maximum is a plus the
  maximum of the d j, so the shifted logits e j − max e are the shifted d j − max d: the row's softmax does not depend
  on a. Adding a real number is a monotone map of [−∞, +∞] that fixes −∞, so it commutes with a maximum folded from −∞
  (this needs no finiteness of the entries and no nonemptiness of the index set); the cancellation
  (a + x) − (a + ρ) = x − ρ is where the entries have to be real.

  Also here: the reassociation of one term of an attention product (no finiteness: the product of [−∞, +∞] is
  commutative and associative), and the two facts about a 0/1 mask m: (a · (1 − m)) · m = 0 and 1 − m ∈ {0, 1}.
-/
import Idealize.ShloMosaic.PureOps.Ideal
import proofs.«163066_j80083960201233_1_alg».proof.Proof.LibERealSums

noncomputable section

namespace Cert.GatSgc

/-- Adding a real number commutes with a binary maximum on [−∞, +∞]: x ↦ a + x is monotone. -/
theorem coe_add_max (a : ℝ) (x y : EReal) :
    (a : EReal) + max x y = max ((a : EReal) + x) ((a : EReal) + y) :=
  Monotone.map_max (f := fun z : EReal => (a : EReal) + z) (fun _ _ h => add_le_add le_rfl h)

/-- A fold of any commutative associative operation that is pointwise the maximum is the fold of the maximum. -/
theorem fold_op_eq_fold_max {ι : Type} (s : Finset ι) (op : EReal → EReal → EReal) [Std.Commutative op]
    [Std.Associative op] (hop : ∀ x y, op x y = max x y) (b : EReal) (f : ι → EReal) :
    s.fold op b f = s.fold max b f := by
  have h : op = max := funext fun x => funext fun y => hop x y
  subst h
  rfl

/-- The max-fold shift: the maximum, from −∞, of the a + f j is a plus the maximum of the f j, for a real a and ANY
    extended-real entries f j, over any finite index set (empty included: a + −∞ = −∞). -/
theorem fold_max_coe_add {ι : Type} (s : Finset ι) (a : ℝ) (f : ι → EReal) :
    s.fold max (⊥ : EReal) (fun j => (a : EReal) + f j) = (a : EReal) + s.fold max (⊥ : EReal) f := by
  classical
  induction s using Finset.induction_on with
  | empty => simp
  | insert j s hj ih => rw [Finset.fold_insert hj, Finset.fold_insert hj, ih, coe_add_max]

/-- The maximum, from −∞, of real entries over a nonempty finite type is a real number. -/
theorem fold_max_real {ι : Type} [Fintype ι] [Nonempty ι] (f : ι → EReal) (hf : ∀ j, ∃ r : ℝ, f j = (r : EReal)) :
    ∃ ρ : ℝ, Finset.univ.fold max (⊥ : EReal) f = (ρ : EReal) := by
  choose g hg using hf
  obtain ⟨ρ, hρ⟩ := Cert.Attn.fold_max_coe_exists Finset.univ Finset.univ_nonempty g
  exact ⟨ρ, by rw [show f = fun k => ((g k : ℝ) : EReal) from funext hg]; exact hρ⟩

/-- The same with the outer max(−∞, ·) both programs apply to the folded maximum. -/
theorem max_bot_fold_max_real {ι : Type} [Fintype ι] [Nonempty ι] (f : ι → EReal)
    (hf : ∀ j, ∃ r : ℝ, f j = (r : EReal)) :
    ∃ ρ : ℝ, max (⊥ : EReal) (Finset.univ.fold max (⊥ : EReal) f) = (ρ : EReal) := by
  obtain ⟨ρ, hρ⟩ := fold_max_real f hf
  exact ⟨ρ, by rw [max_bot_left, hρ]⟩

/-- The shifted logits of a rank-one row: with a and every d k real, (a + d j) − max(−∞, max_k (a + d k)) is
    d j − max(−∞, max_k d k). -/
theorem sub_max_fold_shift {ι : Type} [Fintype ι] (a : EReal) (d : ι → EReal)
    (ha : ∃ r : ℝ, a = (r : EReal)) (hd : ∀ k, ∃ r : ℝ, d k = (r : EReal)) (j : ι) :
    (a + d j) - max (⊥ : EReal) (Finset.univ.fold max (⊥ : EReal) fun k => a + d k)
      = d j - max (⊥ : EReal) (Finset.univ.fold max (⊥ : EReal) d) := by
  haveI : Nonempty ι := ⟨j⟩
  obtain ⟨a', rfl⟩ := ha
  obtain ⟨ρ, hρ⟩ := fold_max_real d hd
  obtain ⟨x, hx⟩ := hd j
  rw [fold_max_coe_add, hρ, hx, max_bot_left, max_bot_left, ← EReal.coe_add, ← EReal.coe_add, ← EReal.coe_sub,
    ← EReal.coe_sub, add_sub_add_left_eq_sub]

/-- The same when the outer maximum is taken against any b below the folded maximum (b = −∞ in the programs). -/
theorem sub_max_fold_shift_of_le {ι : Type} [Fintype ι] (a : EReal) (d : ι → EReal) (b b' : EReal)
    (ha : ∃ r : ℝ, a = (r : EReal)) (hd : ∀ k, ∃ r : ℝ, d k = (r : EReal))
    (hb : b ≤ Finset.univ.fold max (⊥ : EReal) fun k => a + d k) (hb' : b' ≤ Finset.univ.fold max (⊥ : EReal) d)
    (j : ι) :
    (a + d j) - max b (Finset.univ.fold max (⊥ : EReal) fun k => a + d k)
      = d j - max b' (Finset.univ.fold max (⊥ : EReal) d) := by
  have h := sub_max_fold_shift a d ha hd j
  rw [max_bot_left, max_bot_left] at h
  rw [max_eq_right hb, max_eq_right hb', h]

/-- The row softmax collapse. Let e k = a + d k with a and every d k real, M the row maximum max(−∞, max_k e k) and
    M' the maximum max(−∞, max_k d k). Then for ANY φ (the exponential in the programs), ψ (the quotient) and z (the
    sum's initial value): ψ (φ (e j − M)) (z + Σ_k φ (e k − M)) = ψ (φ (d j − M')) (z + Σ_k φ (d k − M')). -/
theorem softmax_row_collapse {ι : Type} [Fintype ι] (φ : EReal → EReal) (ψ : EReal → EReal → EReal) (z : EReal)
    (a : EReal) (d e : ι → EReal) (M M' : EReal)
    (ha : ∃ r : ℝ, a = (r : EReal)) (hd : ∀ k, ∃ r : ℝ, d k = (r : EReal)) (he : ∀ k, e k = a + d k)
    (hM : M = max (⊥ : EReal) (Finset.univ.fold max (⊥ : EReal) e))
    (hM' : M' = max (⊥ : EReal) (Finset.univ.fold max (⊥ : EReal) d)) (j : ι) :
    ψ (φ (e j - M)) (z + ∑ k, φ (e k - M)) = ψ (φ (d j - M')) (z + ∑ k, φ (d k - M')) := by
  have key : ∀ k, e k - M = d k - M' := by
    intro k
    rw [hM, hM', show e = fun k => a + d k from funext he]
    exact sub_max_fold_shift a d ha hd k
  simp only [key]

/-- One row of the attention product, reassociated: Σ_j (s j · adj i j) · h j f = Σ_j adj i j · (h j f · s j).
    No finiteness: the product of [−∞, +∞] is commutative and associative. -/
theorem attention_sum_comm {ι κ μ : Type} [Fintype ι] (s : ι → EReal) (adj : κ → ι → EReal) (h : ι → μ → EReal)
    (i : κ) (f : μ) :
    ∑ j, (s j * adj i j) * h j f = ∑ j, adj i j * (h j f * s j) :=
  Finset.sum_congr rfl fun j _ => by rw [mul_comm (s j) (adj i j), mul_assoc, mul_comm (s j) (h j f)]

/-- One entry of a dense attention layer with rank-one logits. The row's weights are the softmax of e i k = src i + d k
    (shifted by the row maximum M i = max(−∞, max_k e i k), written with ANY φ, ψ, z as in `softmax_row_collapse`),
    multiplied by adj i j and contracted with h; the result is adj contracted with h scaled by the ONE softmax of d:
    Σ_j (ψ (φ (e i j − M i)) (z + Σ_k φ (e i k − M i)) · adj i j) · h j f = Σ_j adj i j · (h j f · s j),
    s j = ψ (φ (d j − M')) (z + Σ_k φ (d k − M')), M' = max(−∞, max_k d k); src i and every d k real. -/
theorem attention_row_collapse {ι μ : Type} [Fintype ι] (φ : EReal → EReal) (ψ : EReal → EReal → EReal) (z : EReal)
    (src d : ι → EReal) (adj : ι → ι → EReal) (h : ι → μ → EReal)
    (hsrc : ∀ i, ∃ r : ℝ, src i = (r : EReal)) (hd : ∀ k, ∃ r : ℝ, d k = (r : EReal)) (i : ι) (f : μ) :
    ∑ j, (ψ (φ ((src i + d j) - max (⊥ : EReal) (Finset.univ.fold max (⊥ : EReal) fun k => src i + d k)))
            (z + ∑ k, φ ((src i + d k) - max (⊥ : EReal) (Finset.univ.fold max (⊥ : EReal) fun k => src i + d k)))
          * adj i j) * h j f
      = ∑ j, adj i j * (h j f * ψ (φ (d j - max (⊥ : EReal) (Finset.univ.fold max (⊥ : EReal) d)))
            (z + ∑ k, φ (d k - max (⊥ : EReal) (Finset.univ.fold max (⊥ : EReal) d)))) := by
  rw [← attention_sum_comm (fun j => ψ (φ (d j - max (⊥ : EReal) (Finset.univ.fold max (⊥ : EReal) d)))
    (z + ∑ k, φ (d k - max (⊥ : EReal) (Finset.univ.fold max (⊥ : EReal) d)))) adj h i f]
  refine Finset.sum_congr rfl fun j _ => ?_
  rw [softmax_row_collapse φ ψ z (src i) d (fun k => src i + d k) _ _ (hsrc i) hd (fun _ => rfl) rfl rfl j]

/-- 1 − 1 = 0 on [−∞, +∞]. -/
theorem one_sub_one : (1 : EReal) - 1 = 0 := by
  rw [← EReal.coe_one, ← EReal.coe_sub, sub_self, EReal.coe_zero]

/-- A 0/1 mask kills what was multiplied by its complement: (a · (1 − m)) · m = 0, for every a in [−∞, +∞]. -/
theorem mask_cancel (a m : EReal) (hm : m = 0 ∨ m = 1) : (a * (1 - m)) * m = 0 := by
  rcases hm with rfl | rfl
  · exact mul_zero _
  · rw [one_sub_one, mul_zero, zero_mul]

/-- The complement of a 0/1 mask is a 0/1 mask. -/
theorem one_sub_mask (m : EReal) (hm : m = 0 ∨ m = 1) : 1 - m = 0 ∨ 1 - m = 1 := by
  rcases hm with rfl | rfl
  · exact Or.inr (sub_zero _)
  · exact Or.inl one_sub_one

/-- A 0/1 mask and its complement are real numbers. -/
theorem mask_real (m : EReal) (hm : m = 0 ∨ m = 1) : ∃ r : ℝ, m = (r : EReal) := by
  rcases hm with rfl | rfl
  · exact ⟨0, EReal.coe_zero.symm⟩
  · exact ⟨1, EReal.coe_one.symm⟩

end Cert.GatSgc

end
-- ==== Proof.LibRealClosure.lean ====
/-
  "Every entry is a real number" propagates through the operations of a dense graph attention layer, read on the
  extended reals [−∞, +∞].

  A real number is an element of [−∞, +∞] of the form (r : ℝ). Sums, differences and products of real numbers are
  real, hence finite sums of products are; the exponential of a real number is a positive real number; a nonempty
  finite sum of positive real numbers is a positive real number; the quotient of a real number by a positive (or just
  nonzero) real number is real; the maximum of finitely many real numbers over a nonempty index set is real. So every
  entry of a softmax of real logits is real. The exponential linear unit maps a real number r to r when r > 0 and to
  exp r − 1 otherwise, a real number either way. The unsigned reading of a one-bit word is 0 or 1.
-/
import Idealize.ShloMosaic.PureOps.Ideal
import Idealize.ShloMosaic.PureOps.Ideal.Laws
import proofs.«163066_j80083960201233_1_alg».proof.Proof.LibERealSums
import proofs.«163066_j80083960201233_1_alg».proof.Proof.LibSoftmaxShift

noncomputable section

namespace Cert.GatSgc

open Idealize.ShloMosaic

/-! ### The patterns of −∞, +∞ and 1 -/

/-- The f32 pattern of −∞ denotes −∞. -/
theorem ofBits_neg_inf_f32 : Ideal.ofBits .f32 0xFF800000#32 = ⊥ := by simp [Ideal.ofBits, Ideal.ieee]

/-- The f32 pattern of +∞ denotes +∞. -/
theorem ofBits_inf_f32 : Ideal.ofBits .f32 0x7F800000#32 = ⊤ := by simp [Ideal.ofBits, Ideal.ieee]

/-- The f32 pattern of 1.0 denotes 1. -/
theorem ofBits_one_f32 : Ideal.ofBits .f32 0x3F800000#32 = 1 := by
  simp [Ideal.ofBits, Ideal.ieee, -EReal.coe_mul]; norm_num

/-- A fold of the idealized `maximumf` is the fold of the maximum of [−∞, +∞]. -/
theorem fold_maximumf_eq_fold_max {ι : Type} (s : Finset ι) (φ : FTy) (b : EReal) (f : ι → EReal) :
    s.fold (FloatOps.maximumf (F := Ideal) (φ := φ)) b f = s.fold max b f :=
  fold_op_eq_fold_max s (FloatOps.maximumf (F := Ideal) (φ := φ)) (fun _ _ => rfl) b f

/-! ### Real numbers inside [−∞, +∞] -/

/-- x is real exactly when it is neither infinity. -/
theorem real_iff_ne (x : EReal) : (∃ r : ℝ, x = (r : EReal)) ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

/-- x is real exactly when |x| = max x (−x) is below +∞ (the form a finiteness precondition takes). -/
theorem real_iff_abs_lt_top (x : EReal) : (∃ r : ℝ, x = (r : EReal)) ↔ max x (-x) < ⊤ := by
  rw [real_iff_ne]
  induction x using EReal.rec with
  | bot => simp
  | top => simp
  | coe r =>
    refine iff_of_true ⟨EReal.coe_ne_bot r, EReal.coe_ne_top r⟩ ?_
    rw [← EReal.coe_neg, max_lt_iff]
    exact ⟨EReal.coe_lt_top _, EReal.coe_lt_top _⟩

theorem real_zero : ∃ r : ℝ, (0 : EReal) = (r : EReal) := ⟨0, EReal.coe_zero.symm⟩

theorem real_one : ∃ r : ℝ, (1 : EReal) = (r : EReal) := ⟨1, EReal.coe_one.symm⟩

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- A finite sum of real numbers is real. -/
theorem real_sum {ι : Type} [Fintype ι] (f : ι → EReal) (hf : ∀ k, ∃ r : ℝ, f k = (r : EReal)) :
    ∃ r : ℝ, ∑ k, f k = (r : EReal) := by
  choose g hg using hf
  exact ⟨∑ k, g k, by rw [Cert.Attn.coe_sum_univ]; exact Finset.sum_congr rfl fun k _ => hg k⟩

/-- A finite sum of products of real numbers is real. -/
theorem real_sum_mul {ι : Type} [Fintype ι] (f g : ι → EReal) (hf : ∀ k, ∃ r : ℝ, f k = (r : EReal))
    (hg : ∀ k, ∃ r : ℝ, g k = (r : EReal)) : ∃ r : ℝ, ∑ k, f k * g k = (r : EReal) :=
  real_sum _ fun k => real_mul (hf k) (hg k)

/-- The same from a zero accumulator, the form of a host product's entry. -/
theorem real_zero_add_sum_mul {ι : Type} [Fintype ι] (f g : ι → EReal) (hf : ∀ k, ∃ r : ℝ, f k = (r : EReal))
    (hg : ∀ k, ∃ r : ℝ, g k = (r : EReal)) : ∃ r : ℝ, 0 + ∑ k, f k * g k = (r : EReal) := by
  rw [zero_add]; exact real_sum_mul f g hf hg

/-! ### Exponential, positive sums, quotient: a softmax entry is real -/

/-- The exponential of a real number is a positive real number. -/
theorem exp_real_pos {x : EReal} (hx : ∃ r : ℝ, x = (r : EReal)) :
    ∃ r : ℝ, 0 < r ∧ Ideal.exp x = (r : EReal) := by
  obtain ⟨a, rfl⟩ := hx; exact ⟨Real.exp a, Real.exp_pos a, rfl⟩

/-- A finite sum of positive real numbers over a nonempty index set is a positive real number. -/
theorem sum_pos_real {ι : Type} [Fintype ι] [Nonempty ι] (f : ι → EReal)
    (hf : ∀ k, ∃ r : ℝ, 0 < r ∧ f k = (r : EReal)) : ∃ r : ℝ, 0 < r ∧ ∑ k, f k = (r : EReal) := by
  choose g hg using hf
  exact ⟨∑ k, g k, Finset.sum_pos (fun k _ => (hg k).1) Finset.univ_nonempty,
    by rw [Cert.Attn.coe_sum_univ]; exact Finset.sum_congr rfl fun k _ => (hg k).2⟩

/-- The quotient of a real number by a nonzero real number is real. -/
theorem div_real_of_ne_zero {x y : EReal} (hx : ∃ r : ℝ, x = (r : EReal)) (hy : ∃ r : ℝ, r ≠ 0 ∧ y = (r : EReal)) :
    ∃ r : ℝ, Ideal.div x y = (r : EReal) := by
  obtain ⟨a, rfl⟩ := hx; obtain ⟨b, hb, rfl⟩ := hy
  exact ⟨a * (1 / b), by rw [Ideal.div_coe hb, EReal.coe_mul]⟩

/-- The quotient of a real number by a positive real number is real. -/
theorem div_real_pos {x y : EReal} (hx : ∃ r : ℝ, x = (r : EReal)) (hy : ∃ r : ℝ, 0 < r ∧ y = (r : EReal)) :
    ∃ r : ℝ, Ideal.div x y = (r : EReal) := by
  obtain ⟨b, hb, hyb⟩ := hy; exact div_real_of_ne_zero hx ⟨b, hb.ne', hyb⟩

/-- An entry of the softmax of real logits d, shifted by a real M, the sum taken from a zero accumulator:
    exp (d j − M) / (0 + Σ_k exp (d k − M)) is real. -/
theorem softmax_entry_real {ι : Type} [Fintype ι] (d : ι → EReal) (M : EReal)
    (hd : ∀ k, ∃ r : ℝ, d k = (r : EReal)) (hM : ∃ r : ℝ, M = (r : EReal)) (j : ι) :
    ∃ r : ℝ, Ideal.div (Ideal.exp (d j - M)) (0 + ∑ k, Ideal.exp (d k - M)) = (r : EReal) := by
  haveI : Nonempty ι := ⟨j⟩
  have hpos : ∀ k, ∃ r : ℝ, 0 < r ∧ Ideal.exp (d k - M) = (r : EReal) := fun k => exp_real_pos (real_sub (hd k) hM)
  obtain ⟨e, _, he⟩ := hpos j
  refine div_real_pos ⟨e, he⟩ ?_
  rw [zero_add]; exact sum_pos_real _ hpos

/-- The same with M the maximum the programs compute, max(−∞, max_k d k). -/
theorem softmax_entry_real_max {ι : Type} [Fintype ι] (d : ι → EReal) (hd : ∀ k, ∃ r : ℝ, d k = (r : EReal))
    (j : ι) :
    ∃ r : ℝ, Ideal.div (Ideal.exp (d j - max (⊥ : EReal) (Finset.univ.fold max (⊥ : EReal) d)))
        (0 + ∑ k, Ideal.exp (d k - max (⊥ : EReal) (Finset.univ.fold max (⊥ : EReal) d))) = (r : EReal) := by
  haveI : Nonempty ι := ⟨j⟩
  exact softmax_entry_real d _ hd (max_bot_fold_max_real d hd) j

/-! ### The exponential linear unit -/

/-- The exponential linear unit as the programs compute it at one entry: v if v > 0, else 1 · (exp w − 1) with
    w = 0 if v > 0, else v. -/
def elu (v : EReal) : EReal :=
  Scalar.select (Ideal.cmp .ogt v 0) v (1 * (Ideal.exp (Scalar.select (Ideal.cmp .ogt v 0) 0 v) - 1))

/-- At a real number r the unit is r for r > 0 and exp r − 1 otherwise. -/
theorem elu_coe (r : ℝ) : elu (r : EReal) = ((if 0 < r then r else Real.exp r - 1 : ℝ) : EReal) := by
  unfold elu Scalar.select
  by_cases h : 0 < r
  · have hc : Ideal.cmp .ogt (r : EReal) 0 = 1 := by
      show BitVec.ofBool (decide ((0 : EReal) < (r : EReal))) = 1
      rw [decide_eq_true (by exact_mod_cast h)]; rfl
    rw [if_pos hc, if_pos h]
  · have hc : ¬ Ideal.cmp .ogt (r : EReal) 0 = 1 := by
      show ¬ BitVec.ofBool (decide ((0 : EReal) < (r : EReal))) = 1
      rw [decide_eq_false (by exact_mod_cast h)]; decide
    rw [if_neg hc, if_neg hc, if_neg h, one_mul, EReal.coe_sub, EReal.coe_one]
    rfl

/-- The exponential linear unit maps real numbers to real numbers. -/
theorem elu_real {v : EReal} (hv : ∃ r : ℝ, v = (r : EReal)) : ∃ r : ℝ, elu v = (r : EReal) := by
  obtain ⟨r, rfl⟩ := hv; exact ⟨_, elu_coe r⟩

/-! ### The mask -/

/-- The unsigned reading of a one-bit word is 0 or 1. -/
theorem uitofp_bit (b : BitVec 1) : ((b.toNat : ℝ) : EReal) = 0 ∨ ((b.toNat : ℝ) : EReal) = 1 := by
  have hlt : b.toNat < 2 := b.isLt
  rcases (by omega : b.toNat = 0 ∨ b.toNat = 1) with h | h
  · left; rw [h]; simp
  · right; rw [h]; simp

/-- The same for the conversion as the programs spell it. -/
theorem uitofp_i1 (φ : FTy) (b : BitVec 1) :
    FloatOps.uitofp (F := Ideal) φ b = 0 ∨ FloatOps.uitofp (F := Ideal) φ b = 1 := uitofp_bit b

end Cert.GatSgc

end
-- ==== Proof.LibRealArrays.lean ====
/-
  Arrays all of whose entries are real numbers, over the extended reals.

  The extended reals carry ±∞, at which cancellation and distributivity fail; an argument that uses them needs every
  entry involved to be a real. This module propagates "every entry is a real" through the operations a graph network's
  host code is made of: a gather reads entries of its operand, an accumulating scatter adds finitely many update entries
  to an operand entry, the pointwise sum, difference, product and maximum of real entries are real, and the reciprocal
  of a count clamped below by one is a positive real.
-/
import Idealize.ShloMosaic.PureOps.Ideal.Laws
import Idealize.ShloMosaic.Lib.ValueIdx
import Idealize.ShloMosaic.Lib.Pipeline.Value
import proofs.«163066_j80083960201233_1_alg».proof.Proof.LibRealClosure

noncomputable section

open Idealize.ShloMosaic

namespace Cert.RealArrays

/-- Every entry of the array is a real number. -/
def AllReal {ι : Type*} (v : ι → EReal) : Prop := ∀ i, ∃ r : ℝ, v i = (r : EReal)

/-- A finite sum of reals is a real. -/
theorem real_finset_sum {ι : Type*} (s : Finset ι) (f : ι → EReal) (hf : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    rw [Finset.sum_insert ha]
    obtain ⟨r1, h1⟩ := hf a (Finset.mem_insert_self _ _)
    obtain ⟨r2, h2⟩ := ih (fun k hk => hf k (Finset.mem_insert_of_mem hk))
    exact ⟨r1 + r2, by rw [h1, h2, EReal.coe_add]⟩

/-- The maximum of two reals is a real. -/
theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  rcases le_total a b with h | h
  · exact ⟨b, max_eq_right (EReal.coe_le_coe_iff.mpr h)⟩
  · exact ⟨a, max_eq_left (EReal.coe_le_coe_iff.mpr h)⟩

/-- A gather reads entries of its operand. -/
theorem allReal_gather {s si t : Shape} {w : ℕ} (d : GatherDims s si t) (x : s.Idx → EReal) (idx : IVec si w)
    (hx : AllReal x) : AllReal (Host.gather d x idx) := fun _ => hx _

/-- An accumulating scatter adds finitely many update entries to an operand entry. -/
theorem allReal_scatterAdd {s si u : Shape} {w : ℕ} {φ : FTy} (d : ScatterDims s si u) (x : FVec Ideal s φ) (idx : IVec si w)
    (upd : FVec Ideal u φ) (hx : AllReal x) (hu : AllReal upd) : AllReal (Host.scatterAdd d x idx upd) := fun i => by
  show ∃ r : ℝ, x i + ∑ j ∈ Finset.univ.filter (fun j => d.resultIdx? j idx = some i), upd j = (r : EReal)
  obtain ⟨r1, h1⟩ := hx i
  obtain ⟨r2, h2⟩ := real_finset_sum _ upd (fun k _ => hu k)
  exact ⟨r1 + r2, by rw [h1, h2, EReal.coe_add]⟩

theorem allReal_mulf {s : Shape} {φ : FTy} (a b : FVec Ideal s φ) (ha : AllReal a) (hb : AllReal b) : AllReal (mulf a b) :=
  fun i => Cert.GatSgc.real_mul (ha i) (hb i)

theorem allReal_addf {s : Shape} {φ : FTy} (a b : FVec Ideal s φ) (ha : AllReal a) (hb : AllReal b) : AllReal (addf a b) :=
  fun i => Cert.GatSgc.real_add (ha i) (hb i)

theorem allReal_subf {s : Shape} {φ : FTy} (a b : FVec Ideal s φ) (ha : AllReal a) (hb : AllReal b) : AllReal (subf a b) :=
  fun i => Cert.GatSgc.real_sub (ha i) (hb i)

theorem allReal_maximumf {s : Shape} {φ : FTy} (a b : FVec Ideal s φ) (ha : AllReal a) (hb : AllReal b) :
    AllReal (maximumf a b) := fun i => real_max (ha i) (hb i)

/-- A broadcast reads entries of its operand. -/
theorem allReal_broadcastInDim {s t : Shape} (dims : Fin s.rank → Fin t.rank) (h : s.BroadcastsInDim t dims) (x : s.Idx → EReal)
    (hx : AllReal x) : AllReal (broadcastInDim t dims h x) := fun j => by
  unfold broadcastInDim
  exact hx _

/-- The zero word read anywhere is the real 0. -/
theorem allReal_zero (s : Shape) : AllReal (constant (F := Ideal) s .f32 0x00000000#32) := fun _ =>
  ⟨0, by show Ideal.ofBits .f32 0x00000000#32 = _; rw [Ideal.ofBits_zero_f32]; rfl⟩

/-- The word of 1.0 read anywhere is the real 1. -/
theorem allReal_one (s : Shape) : AllReal (constant (F := Ideal) s .f32 0x3F800000#32) := fun _ =>
  ⟨1, by show Ideal.ofBits .f32 0x3F800000#32 = _; rw [Cert.GatSgc.ofBits_one_f32]; rfl⟩

/-- The reciprocal of a count clamped below by one: ones scattered into zeros give a real count at every entry, its
    maximum with one is a positive real, and one over that is a real. -/
theorem allReal_inv_count {s si su : Shape} {w : ℕ} (d : ScatterDims s si su) (idx : IVec si w)
    (b1 b0 b1' : (⟨0, ![]⟩ : Shape).BroadcastsInDim s (![] : Fin 0 → Fin s.rank))
    (bu : (⟨0, ![]⟩ : Shape).BroadcastsInDim su (![] : Fin 0 → Fin su.rank)) :
    AllReal (Host.divf (broadcastInDim s (![] : Fin 0 → Fin s.rank) b1 (constant (F := Ideal) ⟨0, ![]⟩ .f32 0x3F800000#32))
      (maximumf (Host.scatterAdd d (broadcastInDim s (![] : Fin 0 → Fin s.rank) b0 (constant (F := Ideal) ⟨0, ![]⟩ .f32 0x00000000#32)) idx
          (broadcastInDim su (![] : Fin 0 → Fin su.rank) bu (constant (F := Ideal) ⟨0, ![]⟩ .f32 0x3F800000#32)))
        (broadcastInDim s (![] : Fin 0 → Fin s.rank) b1' (constant (F := Ideal) ⟨0, ![]⟩ .f32 0x3F800000#32)))) := fun i => by
  have hone : ∀ (b : (⟨0, ![]⟩ : Shape).BroadcastsInDim s (![] : Fin 0 → Fin s.rank)),
      broadcastInDim s (![] : Fin 0 → Fin s.rank) b (constant (F := Ideal) ⟨0, ![]⟩ .f32 0x3F800000#32) i = (1 : EReal) := fun b => by
    unfold broadcastInDim
    show Ideal.ofBits .f32 0x3F800000#32 = _
    exact Cert.GatSgc.ofBits_one_f32
  obtain ⟨r, hr⟩ := allReal_scatterAdd d _ idx _ (allReal_broadcastInDim _ b0 _ (allReal_zero _))
    (allReal_broadcastInDim _ bu _ (allReal_one _)) i
  show ∃ q : ℝ, Ideal.div (broadcastInDim s (![] : Fin 0 → Fin s.rank) b1 (constant (F := Ideal) ⟨0, ![]⟩ .f32 0x3F800000#32) i)
    (max (Host.scatterAdd d (broadcastInDim s (![] : Fin 0 → Fin s.rank) b0 (constant (F := Ideal) ⟨0, ![]⟩ .f32 0x00000000#32)) idx
        (broadcastInDim su (![] : Fin 0 → Fin su.rank) bu (constant (F := Ideal) ⟨0, ![]⟩ .f32 0x3F800000#32)) i)
      (broadcastInDim s (![] : Fin 0 → Fin s.rank) b1' (constant (F := Ideal) ⟨0, ![]⟩ .f32 0x3F800000#32) i)) = (q : EReal)
  rw [hone b1, hr]
  refine Cert.GatSgc.div_real_pos Cert.GatSgc.real_one ⟨max r 1, lt_max_of_lt_right one_pos, ?_⟩
  rcases le_total r 1 with h | h
  · rw [max_eq_right h, max_eq_right (by exact_mod_cast h)]; rfl
  · rw [max_eq_left h, max_eq_left (by exact_mod_cast h)]

end Cert.RealArrays

end
-- ==== Proof.LibFiniteEntry.lean ====
/-
  "|x| < +∞" on the extended reals means x is a real number.

  A precondition of the form "every entry is finite" compares max(x, −x) with the float word of +∞ (0x7F800000, which
  denotes ⊤). At x = ⊥ and at x = ⊤ that maximum is ⊤, and ⊤ < ⊤ fails; so where the comparison's bit is 1, x is the
  image of a real number.
-/
import Idealize.ShloMosaic.PureOps.Ideal

namespace Idealize.ShloMosaic.Ideal

/-- An extended real whose absolute value is below the float word of +∞ is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

end Idealize.ShloMosaic.Ideal
-- ==== Proof.FiniteArgs.lean ====
/-
  From the precondition to real entries.

  The precondition says, of each of the six float arguments x, that the conjunction over all entries of
  "max(x, −x) is below the float word of +∞" is the bit 1. A conjunction that is 1 had the bit 1 at every entry, and an
  extended real whose absolute value is below ⊤ is the image of a real number. So every entry of every float argument is
  a real number.
-/
import proofs.«163066_j80083960201233_1_alg».proof.Defs
import proofs.«163066_j80083960201233_1_alg».proof.Proof.Gen.KernelIdeal
import proofs.«163066_j80083960201233_1_alg».proof.Proof.Gen.Pre_finite_inputs
import proofs.«163066_j80083960201233_1_alg».proof.Proof.LibRealArrays
import proofs.«163066_j80083960201233_1_alg».proof.Proof.LibFiniteEntry
import Idealize.ShloMosaic.Lib.ReduceAll

noncomputable section

namespace Cert.KernelIdeal.FiniteArgs

open Idealize.ShloMosaic Idealize.SL.Sem Cert.RealArrays

/-- The rank-0 shape has one index. -/
instance : Subsingleton Cert.Pre_finite_inputs.S_.Idx := ⟨fun a b => funext fun d => d.elim0⟩

/-- The one index of the rank-0 shape. -/
def i0 : Cert.Pre_finite_inputs.S_.Idx := fun d => d.elim0

/-- One conjunct of the precondition: where the conjunction over all entries of "|x| < +∞" is 1, every entry of x is a
    real number. -/
theorem allReal_of_all {s : Shape} {axes : List (Fin s.rank)} (x : FVec Ideal s .f32)
    (b : Cert.Pre_finite_inputs.S_.BroadcastsInDim s (![] : Fin 0 → Fin s.rank))
    (h : s.ReducesTo axes Cert.Pre_finite_inputs.S_) (hu : 0 < Cert.Pre_finite_inputs.S_.numel)
    (e : Host.reduce IntOp.andi
        (cmpf .olt (Host.absf x) (broadcastInDim s (![] : Fin 0 → Fin s.rank) b (constant (F := Ideal) Cert.Pre_finite_inputs.S_ .f32 0x7F800000#32)))
        (constantI Cert.Pre_finite_inputs.S_ 1 1#1) h hu i0 = 1#1) : AllReal x := fun i =>
  Ideal.real_of_abs_lt_inf (x i) (Host.reduce_andi_all _ _ h hu i0 e i)

theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5))
    ∧ AllReal (m ((c.tc : Thread Cert.KernelIdeal.nD Cert.KernelIdeal.τ).loc Cert.KernelIdeal.main_arg6)) := by
  have e := congrFun (h c) i0
  dsimp only [Cert.Pre_finite_inputs.fn, Cert.Pre_finite_inputs.fn_part1] at e
  simp only [andi, IntOp.andi_eq_one] at e
  obtain ⟨⟨⟨⟨⟨e0, e2⟩, e3⟩, e4⟩, e5⟩, e6⟩ := e
  exact ⟨allReal_of_all _ _ _ _ e0, allReal_of_all _ _ _ _ e2, allReal_of_all _ _ _ _ e3, allReal_of_all _ _ _ _ e4,
    allReal_of_all _ _ _ _ e5, allReal_of_all _ _ _ _ e6⟩

end Cert.KernelIdeal.FiniteArgs

end
-- ==== Proof.LibVarianceForms.lean ====
/-
  Two spellings of the variance of finitely many real numbers, over the extended reals.

  For real numbers x_i indexed by a finite type with n ≠ 0 elements, write S = Σ x_i, Q = Σ x_i², and μ = S / n.
  The mean of the squares minus the square of the mean, Q / n − μ², and the mean of the squared deviations,
  (Σ (x_i − μ)²) / n, are the same real number: Σ (x_i − μ)² = Q − 2 μ S + n μ² = Q − S² / n.
  The statement is made with the extended-real quotient `Ideal.div` and extended-real sums of coerced reals, which
  is how both forms appear in programs read at the exact instance; it needs every x_i to be a real number, since at an
  infinite entry the first form is ⊤ − ⊤ and the second is ⊤.
-/
import Idealize.ShloMosaic.PureOps.Ideal.Laws

noncomputable section

open Idealize.ShloMosaic

namespace Cert.VarianceForms

/-- The coercion of reals into the extended reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity between the two forms, in the reals. -/
theorem variance_real {ι : Type*} [Fintype ι] (x : ι → ℝ) (n : ℝ) (hn : n ≠ 0) (hcard : (Fintype.card ι : ℝ) = n) :
    (∑ i, x i * x i) * (1 / n) - ((∑ i, x i) * (1 / n)) * ((∑ i, x i) * (1 / n))
      = (∑ i, (x i - (∑ j, x j) * (1 / n)) * (x i - (∑ j, x j) * (1 / n))) * (1 / n) := by
  set S := ∑ j, x j with hS
  have e : ∑ i, (x i - S * (1 / n)) * (x i - S * (1 / n))
      = (∑ i, x i * x i) - 2 * (S * (1 / n)) * S + n * ((S * (1 / n)) * (S * (1 / n))) := by
    have : ∀ i, (x i - S * (1 / n)) * (x i - S * (1 / n))
        = x i * x i - 2 * (S * (1 / n)) * x i + (S * (1 / n)) * (S * (1 / n)) := fun i => by ring
    simp only [this, Finset.sum_add_distrib, Finset.sum_sub_distrib, ← Finset.mul_sum, Finset.sum_const,
      Finset.card_univ, nsmul_eq_mul, hcard, ← hS]
    ring
  rw [e]
  field_simp
  ring

/-- The mean of the squares minus the square of the mean is the mean of the squared deviations, for real entries,
    in the extended reals with the exact quotient. -/
theorem variance_forms {ι : Type*} [Fintype ι] (x : ι → ℝ) (n : ℝ) (hn : n ≠ 0) (hcard : (Fintype.card ι : ℝ) = n) :
    Ideal.div (∑ i, (x i : EReal) * (x i : EReal)) (n : EReal)
        - Ideal.div (∑ i, (x i : EReal)) (n : EReal) * Ideal.div (∑ i, (x i : EReal)) (n : EReal)
      = Ideal.div (∑ i, ((x i : EReal) - Ideal.div (∑ j, (x j : EReal)) (n : EReal))
          * ((x i : EReal) - Ideal.div (∑ j, (x j : EReal)) (n : EReal))) (n : EReal) := by
  simp only [Ideal.div_coe hn, ← EReal.coe_mul, ← coe_sum, ← EReal.coe_sub]
  exact congrArg _ (variance_real x n hn hcard)

/-- The mean of finitely many reals, taken with the exact quotient, is a real. -/
theorem mean_real {ι : Type*} [Fintype ι] (x : ι → ℝ) (n : ℝ) (hn : n ≠ 0) :
    Ideal.div (∑ i, (x i : EReal)) (n : EReal) = (((∑ i, x i) * (1 / n) : ℝ) : EReal) := by
  simp only [Ideal.div_coe hn, ← EReal.coe_mul, ← coe_sum]

/-- The mean of the squared deviations of finitely many reals, over a positive count, is a nonnegative real. -/
theorem variance_nonneg {ι : Type*} [Fintype ι] (x : ι → ℝ) (n : ℝ) (hn : 0 < n) :
    ∃ v : ℝ, 0 ≤ v ∧ Ideal.div (∑ i, ((x i : EReal) - Ideal.div (∑ j, (x j : EReal)) (n : EReal))
          * ((x i : EReal) - Ideal.div (∑ j, (x j : EReal)) (n : EReal))) (n : EReal) = (v : EReal) := by
  refine ⟨(∑ i, (x i - (∑ j, x j) * (1 / n)) * (x i - (∑ j, x j) * (1 / n))) * (1 / n), ?_, ?_⟩
  · exact mul_nonneg (Finset.sum_nonneg fun i _ => mul_self_nonneg _) (by positivity)
  · simp only [Ideal.div_coe hn.ne', ← EReal.coe_mul, ← coe_sum, ← EReal.coe_sub]

end Cert.VarianceForms

end
-- ==== Proof.NormForms.lean ====
/-
  The batch normalisation, entry by entry, in the spelling with the mean of the squares.

  With T(r, j) = g(r, j) + b(j), S(j) = Σ_r T(r, j), Q(j) = Σ_r T(r, j)², n = 100000 and μ(j) = S(j) / n, the entry
      max((T(r, j) − μ(j)) · rsqrt((Q(j) / n − μ(j)²) + ε), 0)
  is the entry of the normalisation that takes the variance as the mean of the squared deviations,
      max((T(r, j) − μ(j)) · rsqrt((Σ_r (T(r, j) − μ(j))²) / n + ε), 0),
  when every T(r, j) is a real number: for reals, Q / n − μ² = (Σ (T − μ)²) / n. Everything else — the deviation, ε,
  the reciprocal square root, the maximum with 0 — is spelt the same on the two sides. The second form, read at an
  index, is what the whole-array function of the network's normalisation stage gives: a column sum from the zero word
  is 0 + Σ_r, a vector repeated down the rows has the vector's entry in every row, and the pointwise operations read at
  an index are the operations of the extended reals.
-/
import proofs.«163066_j80083960201233_1_alg».proof.Proof.Spec
import proofs.«163066_j80083960201233_1_alg».proof.Proof.LibVarianceForms
import proofs.«163066_j80083960201233_1_alg».proof.Proof.LibRealArrays
import Idealize.ShloMosaic.Lib.ValueIdx
import Idealize.ShloMosaic.PureOps.Ideal.Laws

noncomputable section

namespace Cert.GcnNet

open Idealize.ShloMosaic Idealize.ShloMosaic.ValueIdx Cert.ReferenceIdeal Cert.RealArrays

/-- The column sum of T = g + b. -/
def kSum (g : Nodes) (b : FVec Ideal S128 .f32) (j : Fin 128) : EReal := ∑ r : Fin 100000, (g (ix2 r j) + b (ix1 j))
/-- The column sum of the squares of T = g + b. -/
def kSumSq (g : Nodes) (b : FVec Ideal S128 .f32) (j : Fin 128) : EReal := ∑ r : Fin 100000, (g (ix2 r j) + b (ix1 j)) * (g (ix2 r j) + b (ix1 j))
/-- The node count's float word. -/
def nCount : EReal := Ideal.ofBits .f32 0x47C35000#32
/-- The float word of ε. -/
def epsWord : EReal := Ideal.ofBits .f32 0x3727C5AC#32
/-- The normalised entry with the variance taken as the mean of the squares minus the squared mean. -/
def kEntry (g : Nodes) (b : FVec Ideal S128 .f32) (r : Fin 100000) (j : Fin 128) : EReal :=
  max (((g (ix2 r j) + b (ix1 j)) - Ideal.div (kSum g b j) nCount)
      * Ideal.rsqrt ((Ideal.div (kSumSq g b j) nCount - Ideal.div (kSum g b j) nCount * Ideal.div (kSum g b j) nCount) + epsWord)) (0 : EReal)

/-- The count's word denotes the real number 100000. -/
theorem nCount_eq : nCount = ((100000 : ℝ) : EReal) := by
  unfold nCount
  simp [Ideal.ofBits, Ideal.ieee, -EReal.coe_mul]; norm_num

/-- A vector repeated down the rows, read at (r, j), is the vector at j. -/
theorem rowsOf_apply (v : FVec Ideal S128 .f32) (r : Fin 100000) (j : Fin 128) : rowsOf v (ix2 r j) = v (ix1 j) := by
  show Read.val_main_v43 (F := Ideal) v (ix2 r j) = _
  rw [Read.val_main_v43_apply, Read.val_main_v42_apply]
  exact congrArg v (funext fun a => Fin.ext (by match a with | ⟨0, _⟩ => rfl))

/-- The sum down column j: the zero word contributes 0, and the inserted index is (r, j). -/
theorem colSum_apply (T : Nodes) (j : Fin 128) : colSum T (ix1 j) = ∑ r : Fin 100000, T (ix2 r j) := by
  unfold colSum
  simp only [Host.reduceAdd, Ideal.hostReduceAdd_def]
  rw [Ideal.hostReduceAdd_single Gen.reducesTo_S100000x128_S128_d0 (by decide)]
  have h0 : constant (F := Ideal) S_ .f32 0x00000000#32 (Shape.Idx.first Gen.h_S_) = (0 : EReal) := Ideal.ofBits_zero_f32
  rw [h0, zero_add]
  refine Finset.sum_congr rfl fun k _ => ?_
  exact congrArg T (funext fun a => Fin.ext (by match a with | ⟨0, _⟩ => rfl | ⟨1, _⟩ => rfl))

/-- The deviation from the column mean at (r, j). -/
theorem centred_apply (T : Nodes) (r : Fin 100000) (j : Fin 128) :
    centred T (ix2 r j) = T (ix2 r j) - Ideal.div (∑ r' : Fin 100000, T (ix2 r' j)) nCount := by
  show T (ix2 r j) - rowsOf (meanOf T) (ix2 r j) = _
  rw [rowsOf_apply]
  show T (ix2 r j) - Ideal.div (colSum T (ix1 j)) nCount = _
  rw [colSum_apply]

/-- The column mean of the squared deviations at j. -/
theorem varOf_apply (T : Nodes) (j : Fin 128) :
    varOf T (ix1 j) = Ideal.div (∑ r : Fin 100000, centred T (ix2 r j) * centred T (ix2 r j)) nCount := by
  show Ideal.div (colSum (mulf (centred T) (centred T)) (ix1 j)) nCount = _
  rw [colSum_apply]
  rfl

/-- The network's normalisation stage at (r, j). -/
theorem bnRelu_apply (T : Nodes) (r : Fin 100000) (j : Fin 128) :
    bnRelu T (ix2 r j)
      = max ((T (ix2 r j) - Ideal.div (∑ r' : Fin 100000, T (ix2 r' j)) nCount)
          * Ideal.rsqrt (Ideal.div (∑ r' : Fin 100000, (T (ix2 r' j) - Ideal.div (∑ r'' : Fin 100000, T (ix2 r'' j)) nCount)
              * (T (ix2 r' j) - Ideal.div (∑ r'' : Fin 100000, T (ix2 r'' j)) nCount)) nCount + epsWord)) (0 : EReal) := by
  show max (centred T (ix2 r j) * rowsOf (Host.rsqrt (addf (varOf T)
      (broadcastInDim S128 ![] Gen.bcast_S_S128 (constant (F := Ideal) S_ .f32 0x3727C5AC#32)))) (ix2 r j))
    (Ideal.ofBits .f32 0x00000000#32) = _
  rw [rowsOf_apply, Ideal.ofBits_zero_f32]
  show max (centred T (ix2 r j) * Ideal.rsqrt (varOf T (ix1 j) + epsWord)) (0 : EReal) = _
  rw [varOf_apply]
  simp only [centred_apply]

/-- The entry with the mean of the squares is the network's normalisation of T = g + b, for real entries. -/
theorem bn_bridge (g : Nodes) (b : FVec Ideal S128 .f32) (hg : AllReal g) (hb : AllReal b) (r : Fin 100000) (j : Fin 128) :
    kEntry g b r j = bnRelu (addf g (rowsOf b)) (ix2 r j) := by
  rw [bnRelu_apply]
  have hT : ∀ r' : Fin 100000, addf g (rowsOf b) (ix2 r' j) = g (ix2 r' j) + b (ix1 j) := fun r' => by
    show g (ix2 r' j) + rowsOf b (ix2 r' j) = _
    rw [rowsOf_apply]
  simp only [hT]
  have hreal : ∀ r' : Fin 100000, ∃ x : ℝ, g (ix2 r' j) + b (ix1 j) = (x : EReal) := fun r' =>
    Cert.GatSgc.real_add (hg _) (hb _)
  choose t ht using hreal
  unfold kEntry kSum kSumSq
  simp only [ht]
  rw [nCount_eq, Cert.VarianceForms.variance_forms t 100000 (by norm_num) (by simp)]

end Cert.GcnNet

end
-- ==== Proof.LibGuardedRsqrt.lean ====
/-
  The normalising factor of a node is the reciprocal square root of its degree where the degree is positive, and zero
  elsewhere. Whatever extended real the "degree" is, that factor is a nonnegative finite number: a positive real has
  a positive real reciprocal square root, the reciprocal square root of +∞ is 0, and anything not above zero is sent
  to 0 by the guard. This is the one property of the factors that the aggregation law uses.
-/
import Idealize.ShloMosaic.PureOps.Ideal
import Mathlib.Data.EReal.Operations

namespace Cert.Gcn

open Idealize.ShloMosaic

/-- `if 0 < x then rsqrt x else 0`, spelt with the comparison bit and the select of the two programs, lies in `[0, ⊤)`. -/
theorem guarded_rsqrt_range (x : EReal) :
    0 ≤ Scalar.select (Ideal.cmp .ogt x 0) (Ideal.rsqrt x) (0 : EReal)
      ∧ Scalar.select (Ideal.cmp .ogt x 0) (Ideal.rsqrt x) (0 : EReal) ≠ ⊤ := by
  unfold Scalar.select Ideal.cmp
  induction x using EReal.rec with
  | bot => simp
  | top => simp
  | coe r =>
    by_cases h : (0 : ℝ) < r
    · have hs : 0 < Real.sqrt r := Real.sqrt_pos.mpr h
      have h' : ((0 : ℝ) : EReal) < (r : EReal) := by exact_mod_cast h
      simp only [EReal.coe_zero] at h'
      simp only [h', decide_true, BitVec.ofBool_true, if_true, Ideal.rsqrt_coe, if_neg (not_lt.mpr h.le), if_neg h.ne']
      exact ⟨by exact_mod_cast (inv_pos.mpr hs).le, EReal.coe_ne_top _⟩
    · have h' : ¬ ((0 : EReal) < (r : EReal)) := by
        intro hh; exact h (by exact_mod_cast hh)
      simp [h']

end Cert.Gcn
-- ==== Proof.ConvReal.lean ====
/-
  The network's linear stages map real arrays to real arrays.

  The aggregation along the edges is a scatter-add into zeros of (rows of h gathered along the edges) times a per-edge
  coefficient. The coefficient of an edge is the product of the two end nodes' normalising factors and the edge's
  weight. A normalising factor is the guarded reciprocal square root of the weighted in-degree: whatever extended real
  that degree is, the factor is nonnegative and not ⊤, hence a real number. So with real weights every coefficient is
  real, with real features every gathered entry is real, and a finite sum of products of reals added to the real 0 is
  real. A dense layer's entry is a finite sum of products of an entry of h and an entry of W; a vector repeated down the
  rows has the vector's entries.
-/
import proofs.«163066_j80083960201233_1_alg».proof.Proof.Spec
import proofs.«163066_j80083960201233_1_alg».proof.Proof.LibRealArrays
import proofs.«163066_j80083960201233_1_alg».proof.Proof.LibGuardedRsqrt

noncomputable section

namespace Cert.GcnNet

open Idealize.ShloMosaic Cert.ReferenceIdeal Cert.ReferenceIdeal.Gen Cert.ReferenceIdeal.Read Cert.RealArrays

/-- A node's normalising factor, select(deg > 0, rsqrt deg, 0), is a real number whatever the degree is. -/
theorem factor_real (e : Edges) (w : Weights) : AllReal (val_main_v12 (F := Ideal) e w) := fun i => by
  have h9 : val_main_v9 (F := Ideal) i = (0 : EReal) := by
    rw [val_main_v9_apply]; exact Ideal.ofBits_zero_f32
  have h1 : val_main_call0_v1 (F := Ideal) i = (0 : EReal) := by
    rw [val_main_call0_v1_apply]; exact Ideal.ofBits_zero_f32
  obtain ⟨h0, ht⟩ := Cert.Gcn.guarded_rsqrt_range (val_main_v8 (F := Ideal) e w i)
  rw [val_main_v12_apply, val_main_v10_apply, val_main_v11_apply, h9, h1, Ideal.cmpf_def, Ideal.hostUnary_rsqrt_def]
  refine (Cert.GatSgc.real_iff_ne _).2 ⟨fun hb => ?_, ht⟩
  rw [hb] at h0
  exact absurd h0 (not_le.mpr EReal.bot_lt_zero)

/-- An edge's coefficient, factor(src) · factor(dst) · weight, is real when the weights are. -/
theorem coeff_real (e : Edges) (w : Weights) (hw : AllReal w) : AllReal (val_main_v37 (F := Ideal) e w) := by
  have h19 : AllReal (val_main_v19 (F := Ideal) e w) := by
    unfold val_main_v19; exact allReal_gather _ _ _ (factor_real e w)
  have h26 : AllReal (val_main_v26 (F := Ideal) e w) := by
    unfold val_main_v26; exact allReal_gather _ _ _ (factor_real e w)
  have h27 : AllReal (val_main_v27 (F := Ideal) e w) := by
    unfold val_main_v27; exact allReal_mulf _ _ h19 h26
  have h28 : AllReal (val_main_v28 (F := Ideal) e w) := by
    unfold val_main_v28; exact allReal_mulf _ _ h27 hw
  have h36 : AllReal (val_main_v36 (F := Ideal) e w) := by
    unfold val_main_v36; exact allReal_broadcastInDim _ _ _ h28
  unfold val_main_v37; exact allReal_broadcastInDim _ _ _ h36

theorem conv_real (h : Nodes) (e : Edges) (w : Weights) (hh : AllReal h) (hw : AllReal w) : AllReal (conv h e w) := by
  unfold conv
  refine allReal_scatterAdd _ _ _ _ ?_ (allReal_mulf _ _ (allReal_gather _ _ _ hh) (coeff_real e w hw))
  unfold val_main_v39 val_main_cst_7
  exact allReal_broadcastInDim _ _ _ (allReal_zero _)

theorem dense_real (h : Nodes) (W : FVec Ideal S128x128 .f32) (hh : AllReal h) (hW : AllReal W) : AllReal (dense h W) := fun i => by
  show ∃ r : ℝ, val_main_v5 (F := Ideal) h W i = (r : EReal)
  rw [val_main_v5_apply]
  exact Cert.GatSgc.real_sum_mul _ _ (fun k => hh _) (fun k => by rw [val_main_v4_apply]; exact hW _)

theorem rowsOf_real (v : FVec Ideal S128 .f32) (hv : AllReal v) : AllReal (rowsOf v) := by
  unfold rowsOf
  exact allReal_broadcastInDim _ _ _ (allReal_broadcastInDim _ _ _ hv)

end Cert.GcnNet

end
-- ==== Proof.Persist.lean ====
/-
  Buffers that pass unchanged through the program's segments.

  The program is a chain of host stretches and pipelined regions. A host stretch changes only the buffers its
  operations write; a region changes only its windows' arrays, and an input window's array is left as entered. So a
  buffer that a step neither writes nor has as an output window holds after the step what it held before it. This
  module lists, per host stretch, every reference the stretch writes, and walks the buffers the value argument needs
  (arguments, the two edge-index columns, the aggregated features, the normalised features) back along the chain to
  where they were last written.
-/
import proofs.«163066_j80083960201233_1_alg».proof.Proof.Gen.KernelIdeal.Frame
import Idealize.ShloMosaic.Lib.StableHlo.Run

noncomputable section

namespace Cert.KernelIdeal.Persist

open Cert.KernelIdeal Cert.KernelIdeal.Gen Idealize.ShloMosaic Idealize.ShloMosaic.TcCoe Idealize.SL.Sem

variable {F : FTy → Type} [FloatOps F] (m : (ℓ : Loc nD τ sig) → Buf (Elt F) ℓ) (ρ : Dev nD → PrngReg) (c : Dev nD)

/-! ## What each host stretch writes -/

/-- The references the first stretch writes: the two edge-index rows, their flattenings, the transposed weight. -/
abbrev hostOps0_W : List (Ref sig .tc) := [main_v0, main_v1, main_v2, main_v3, main_v4]
/-- The degree stage of the first layer. -/
abbrev hostOps1_W : List (Ref sig .tc) :=
  [main_cst, main_v6, main_v7, main_v8, main_cst_0, main_v9, main_v10, main_v11, main_cst_1]
/-- The guard of the first layer's factor. -/
abbrev hostOps1_1_W : List (Ref sig .tc) := [main_call0_v0, main_call0_v1, main_v12]
/-- The coefficients and the aggregation of the first layer. -/
abbrev hostOps1_2_W : List (Ref sig .tc) :=
  [main_c, main_v13, main_v14, main_c_2, main_v15, main_v16, main_v17, main_v18, main_v19, main_c_3, main_v20, main_v21,
   main_c_4, main_v22, main_v23, main_v24, main_v25, main_v26, main_v27, main_v28, main_c_5, main_v29, main_v30, main_c_6,
   main_v31, main_v32, main_v33, main_v34, main_v35, main_v36, main_v37, main_v38, main_cst_7, main_v39, main_v40, main_v41,
   main_v42]
/-- The mean, the variance and the scale between the layers. -/
abbrev hostOps2_W : List (Ref sig .tc) :=
  [main_cst_8, main_v44, main_v45, main_cst_9, main_v46, main_v47, main_v48, main_v49, main_cst_10, main_v50, main_v51,
   main_v52, main_v53]
/-- The second transposed weight. -/
abbrev hostOps3_W : List (Ref sig .tc) := [main_v55]
/-- The degree stage of the second layer. -/
abbrev hostOps4_W : List (Ref sig .tc) :=
  [main_cst_11, main_v57, main_v58, main_v59, main_cst_12, main_v60, main_v61, main_v62, main_cst_13]
/-- The guard of the second layer's factor. -/
abbrev hostOps4_1_W : List (Ref sig .tc) := [main_call1_v0, main_call1_v1, main_v63]
/-- The coefficients and the aggregation of the second layer. -/
abbrev hostOps4_2_W : List (Ref sig .tc) :=
  [main_c_14, main_v64, main_v65, main_c_15, main_v66, main_v67, main_v68, main_v69, main_v70, main_c_16, main_v71, main_v72,
   main_c_17, main_v73, main_v74, main_v75, main_v76, main_v77, main_v78, main_v79, main_c_18, main_v80, main_v81, main_c_19,
   main_v82, main_v83, main_v84, main_v85, main_v86, main_v87, main_v88, main_v89, main_cst_20, main_v90, main_v91, main_v92,
   main_v93]

theorem hostOps0_writes : (hostOps0 : List (HloOp τ sig (Elt F))).Forall fun op => op.writes ⊆ (hostOps0_W.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem hostOps1_writes : (hostOps1 : List (HloOp τ sig (Elt F))).Forall fun op => op.writes ⊆ (hostOps1_W.map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem hostOps1_1_writes : (hostOps1_1 : List (HloOp τ sig (Elt F))).Forall fun op => op.writes ⊆ (hostOps1_1_W.map (Proc.devRef (τ := τ) .tc)).toFinset := by
  simp only [hostOps1_1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem hostOps1_2_writes : (hostOps1_2 : List (HloOp τ sig (Elt F))).Forall fun op => op.writes ⊆ (hostOps1_2_W.map (Proc.devRef (τ := τ) .tc)).toFinset := by
  simp only [hostOps1_2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem hostOps2_writes : (hostOps2 : List (HloOp τ sig (Elt F))).Forall fun op => op.writes ⊆ (hostOps2_W.map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem hostOps3_writes : (hostOps3 : List (HloOp τ sig (Elt F))).Forall fun op => op.writes ⊆ (hostOps3_W.map (Proc.devRef (τ := τ) .tc)).toFinset := by
  simp only [hostOps3, List.Forall, StableHlo.nullary_writes, StableHlo.unary_writes, StableHlo.binary_writes, StableHlo.ternary_writes,
    StableHlo.reshape_writes, Finset.singleton_subset_iff, List.mem_toFinset]
  exact List.mem_map_of_mem (by decide)
theorem hostOps4_writes : (hostOps4 : List (HloOp τ sig (Elt F))).Forall fun op => op.writes ⊆ (hostOps4_W.map (Proc.devRef (τ := τ) .tc)).toFinset := by
  simp only [hostOps4, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem hostOps4_1_writes : (hostOps4_1 : List (HloOp τ sig (Elt F))).Forall fun op => op.writes ⊆ (hostOps4_1_W.map (Proc.devRef (τ := τ) .tc)).toFinset := by
  simp only [hostOps4_1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem hostOps4_2_writes : (hostOps4_2 : List (HloOp τ sig (Elt F))).Forall fun op => op.writes ⊆ (hostOps4_2_W.map (Proc.devRef (τ := τ) .tc)).toFinset := by
  simp only [hostOps4_2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-! ## A stretch keeps what it does not write -/

theorem keep0 (W : Valuation τ sig (Elt F)) (r : Ref sig .tc) (h : r ∉ hostOps0_W) :
    StableHlo.after hostOps0 W (Proc.devRef .tc r) = W (Proc.devRef .tc r) :=
  StableHlo.after_of_writes_sub hostOps0 _ hostOps0_writes h
theorem keep1 (W : Valuation τ sig (Elt F)) (r : Ref sig .tc) (h : r ∉ hostOps1_W) :
    StableHlo.after hostOps1 W (Proc.devRef .tc r) = W (Proc.devRef .tc r) :=
  StableHlo.after_of_writes_sub hostOps1 _ hostOps1_writes h
theorem keep1_1 (W : Valuation τ sig (Elt F)) (r : Ref sig .tc) (h : r ∉ hostOps1_1_W) :
    StableHlo.after hostOps1_1 W (Proc.devRef .tc r) = W (Proc.devRef .tc r) :=
  StableHlo.after_of_writes_sub hostOps1_1 _ hostOps1_1_writes h
theorem keep1_2 (W : Valuation τ sig (Elt F)) (r : Ref sig .tc) (h : r ∉ hostOps1_2_W) :
    StableHlo.after hostOps1_2 W (Proc.devRef .tc r) = W (Proc.devRef .tc r) :=
  StableHlo.after_of_writes_sub hostOps1_2 _ hostOps1_2_writes h
theorem keep2 (W : Valuation τ sig (Elt F)) (r : Ref sig .tc) (h : r ∉ hostOps2_W) :
    StableHlo.after hostOps2 W (Proc.devRef .tc r) = W (Proc.devRef .tc r) :=
  StableHlo.after_of_writes_sub hostOps2 _ hostOps2_writes h
theorem keep3 (W : Valuation τ sig (Elt F)) (r : Ref sig .tc) (h : r ∉ hostOps3_W) :
    StableHlo.after hostOps3 W (Proc.devRef .tc r) = W (Proc.devRef .tc r) :=
  StableHlo.after_of_writes_sub hostOps3 _ hostOps3_writes h
theorem keep4 (W : Valuation τ sig (Elt F)) (r : Ref sig .tc) (h : r ∉ hostOps4_W) :
    StableHlo.after hostOps4 W (Proc.devRef .tc r) = W (Proc.devRef .tc r) :=
  StableHlo.after_of_writes_sub hostOps4 _ hostOps4_writes h
theorem keep4_1 (W : Valuation τ sig (Elt F)) (r : Ref sig .tc) (h : r ∉ hostOps4_1_W) :
    StableHlo.after hostOps4_1 W (Proc.devRef .tc r) = W (Proc.devRef .tc r) :=
  StableHlo.after_of_writes_sub hostOps4_1 _ hostOps4_1_writes h
theorem keep4_2 (W : Valuation τ sig (Elt F)) (r : Ref sig .tc) (h : r ∉ hostOps4_2_W) :
    StableHlo.after hostOps4_2 W (Proc.devRef .tc r) = W (Proc.devRef .tc r) :=
  StableHlo.after_of_writes_sub hostOps4_2 _ hostOps4_2_writes h

/-! ## Walking back along the chain -/

/-- After the first stretch a buffer it does not write holds the launch contents. -/
theorem W1_of_launch (r : Ref sig .tc) (h0 : r ∉ hostOps0_W) :
    W1 m ρ c (Proc.devRef .tc r) = m ((c.tc : Thread nD τ).loc r) :=
  (keep0 (W0 m ρ c) r h0).trans rfl

/-- From region 1's entry back to region 0's exit: the three stretches between them. -/
theorem W5_of_W2 (r : Ref sig .tc) (h1 : r ∉ hostOps1_W) (h11 : r ∉ hostOps1_1_W) (h12 : r ∉ hostOps1_2_W) :
    W5 m ρ c (Proc.devRef .tc r) = W2 m ρ c (Proc.devRef .tc r) :=
  (keep1_2 (W4 m ρ c) r h12).trans ((keep1_1 (W3 m ρ c) r h11).trans (keep1 (W2 m ρ c) r h1))

/-- From region 1's exit back to region 0's entry. -/
theorem W6_of_W1 (r : Ref sig .tc) (h1 : r ∉ hostOps1_W) (h11 : r ∉ hostOps1_1_W) (h12 : r ∉ hostOps1_2_W)
    (a0 : ∀ w, Pipeline.arrRef spec0 w ≠ r) (a1 : ∀ w, Pipeline.arrRef spec1 w ≠ r) :
    W6 m ρ c (Proc.devRef .tc r) = W1 m ρ c (Proc.devRef .tc r) :=
  (W6_of_ne m ρ c r a1).trans ((W5_of_W2 m ρ c r h1 h11 h12).trans (W2_of_ne m ρ c r a0))

/-- From region 2's exit back to region 0's entry. -/
theorem W8_of_W1 (r : Ref sig .tc) (h1 : r ∉ hostOps1_W) (h11 : r ∉ hostOps1_1_W) (h12 : r ∉ hostOps1_2_W) (h2 : r ∉ hostOps2_W)
    (a0 : ∀ w, Pipeline.arrRef spec0 w ≠ r) (a1 : ∀ w, Pipeline.arrRef spec1 w ≠ r) (a2 : ∀ w, Pipeline.arrRef spec2 w ≠ r) :
    W8 m ρ c (Proc.devRef .tc r) = W1 m ρ c (Proc.devRef .tc r) :=
  (W8_of_ne m ρ c r a2).trans ((keep2 (W6 m ρ c) r h2).trans (W6_of_W1 m ρ c r h1 h11 h12 a0 a1))

/-- From region 3's exit back to region 0's entry. -/
theorem W10_of_W1 (r : Ref sig .tc) (h1 : r ∉ hostOps1_W) (h11 : r ∉ hostOps1_1_W) (h12 : r ∉ hostOps1_2_W) (h2 : r ∉ hostOps2_W)
    (h3 : r ∉ hostOps3_W) (a0 : ∀ w, Pipeline.arrRef spec0 w ≠ r) (a1 : ∀ w, Pipeline.arrRef spec1 w ≠ r)
    (a2 : ∀ w, Pipeline.arrRef spec2 w ≠ r) (a3 : ∀ w, Pipeline.arrRef spec3 w ≠ r) :
    W10 m ρ c (Proc.devRef .tc r) = W1 m ρ c (Proc.devRef .tc r) :=
  (W10_of_ne m ρ c r a3).trans ((keep3 (W8 m ρ c) r h3).trans (W8_of_W1 m ρ c r h1 h11 h12 h2 a0 a1 a2))

/-! ## The buffers the value argument reads -/

theorem W1_arg0 : W1 m ρ c (Proc.devRef .tc main_arg0) = m ((c.tc : Thread nD τ).loc main_arg0) :=
  W1_of_launch m ρ c main_arg0 (by decide)

theorem W2_v1 : W2 m ρ c (Proc.devRef .tc main_v1) = W1 m ρ c (Proc.devRef .tc main_v1) :=
  W2_of_ne m ρ c main_v1 (by decide)
theorem W2_v3 : W2 m ρ c (Proc.devRef .tc main_v3) = W1 m ρ c (Proc.devRef .tc main_v3) :=
  W2_of_ne m ρ c main_v3 (by decide)
theorem W2_arg2 : W2 m ρ c (Proc.devRef .tc main_arg2) = m ((c.tc : Thread nD τ).loc main_arg2) :=
  (W2_of_ne m ρ c main_arg2 (by decide)).trans (W1_of_launch m ρ c main_arg2 (by decide))
theorem W2_arg4 : W2 m ρ c (Proc.devRef .tc main_arg4) = m ((c.tc : Thread nD τ).loc main_arg4) :=
  (W2_of_ne m ρ c main_arg4 (by decide)).trans (W1_of_launch m ρ c main_arg4 (by decide))

theorem W6_arg4 : W6 m ρ c (Proc.devRef .tc main_arg4) = m ((c.tc : Thread nD τ).loc main_arg4) :=
  (W6_of_W1 m ρ c main_arg4 (by decide) (by decide) (by decide) (by decide) (by decide)).trans
    (W1_of_launch m ρ c main_arg4 (by decide))
/-- The aggregated features are region 1's input window 0: an input window's array is left as entered. -/
theorem W6_v41 : W6 m ρ c (Proc.devRef .tc main_v41) = W5 m ρ c (Proc.devRef .tc main_v41) :=
  (W6_arr m ρ c 0).trans (((dat1 (V5 m ρ) c).arrAt_in 0 rfl _).trans (A_eq1 (V5 m ρ) c 0))
theorem W7_v41 : W7 m ρ c (Proc.devRef .tc main_v41) = W6 m ρ c (Proc.devRef .tc main_v41) :=
  keep2 (W6 m ρ c) main_v41 (by decide)

theorem W8_arg5 : W8 m ρ c (Proc.devRef .tc main_arg5) = m ((c.tc : Thread nD τ).loc main_arg5) :=
  (W8_of_W1 m ρ c main_arg5 (by decide) (by decide) (by decide) (by decide) (by decide) (by decide) (by decide)).trans
    (W1_of_launch m ρ c main_arg5 (by decide))
theorem W9_v54 : W9 m ρ c (Proc.devRef .tc main_v54) = W8 m ρ c (Proc.devRef .tc main_v54) :=
  keep3 (W8 m ρ c) main_v54 (by decide)

theorem W10_v1 : W10 m ρ c (Proc.devRef .tc main_v1) = W1 m ρ c (Proc.devRef .tc main_v1) :=
  W10_of_W1 m ρ c main_v1 (by decide) (by decide) (by decide) (by decide) (by decide) (by decide) (by decide) (by decide) (by decide)
theorem W10_v3 : W10 m ρ c (Proc.devRef .tc main_v3) = W1 m ρ c (Proc.devRef .tc main_v3) :=
  W10_of_W1 m ρ c main_v3 (by decide) (by decide) (by decide) (by decide) (by decide) (by decide) (by decide) (by decide) (by decide)
theorem W10_arg2 : W10 m ρ c (Proc.devRef .tc main_arg2) = m ((c.tc : Thread nD τ).loc main_arg2) :=
  (W10_of_W1 m ρ c main_arg2 (by decide) (by decide) (by decide) (by decide) (by decide) (by decide) (by decide) (by decide) (by decide)).trans
    (W1_of_launch m ρ c main_arg2 (by decide))
theorem W10_arg6 : W10 m ρ c (Proc.devRef .tc main_arg6) = m ((c.tc : Thread nD τ).loc main_arg6) :=
  (W10_of_W1 m ρ c main_arg6 (by decide) (by decide) (by decide) (by decide) (by decide) (by decide) (by decide) (by decide) (by decide)).trans
    (W1_of_launch m ρ c main_arg6 (by decide))

end Cert.KernelIdeal.Persist

end
-- ==== Proof.HostStretches.lean ====
/-
  The host operations of the kernel program, stretch by stretch, as functions of the buffers each stretch finds.

  Between its five kernel launches the program runs plain array operations: it splits the edge list into sources and
  destinations and transposes a weight matrix; it runs the normalised aggregation along the edges on the first layer's
  product; it turns the two column sums into a mean and a reciprocal standard deviation; it transposes the second
  weight matrix; and it runs the aggregation again. Each stretch is read here from ANY contents of the buffers it
  finds, so that what a launch leaves can be put in afterwards; the aggregation is the one function `conv` of the
  reference, never opened.
-/
import proofs.«163066_j80083960201233_1_alg».proof.Proof.Gen.KernelIdeal.Launch
import proofs.«163066_j80083960201233_1_alg».proof.Proof.Spec
import proofs.«163066_j80083960201233_1_alg».proof.Proof.Persist
import Idealize.ShloMosaic.Lib.StableHlo.Run

set_option maxRecDepth 16384

noncomputable section

namespace Cert.KernelIdeal.HostStretches

open Cert.KernelIdeal Cert.KernelIdeal.Gen Idealize.ShloMosaic Idealize.ShloMosaic.TcCoe Idealize.ShloMosaic.StableHlo Idealize.SL.Sem
open Cert.GcnNet

variable (W : Valuation τ sig (Elt Ideal))

/-! ## Before the first launch: the edge list split, the first weight matrix transposed -/

theorem sources0 : after (hostOps0 (F := Ideal)) W (Proc.devRef .tc main_v1)
    = Cert.ReferenceIdeal.Read.val_main_v1 (F := Ideal) (W (Proc.devRef .tc main_arg1)) := by
  dsimp only [hostOps0]; after_results; rfl

theorem targets0 : after (hostOps0 (F := Ideal)) W (Proc.devRef .tc main_v3)
    = Cert.ReferenceIdeal.Read.val_main_v3 (F := Ideal) (W (Proc.devRef .tc main_arg1)) := by
  dsimp only [hostOps0]; after_results; rfl

theorem weightsT0 : after (hostOps0 (F := Ideal)) W (Proc.devRef .tc main_v4)
    = Cert.ReferenceIdeal.Read.val_main_v4 (F := Ideal) (W (Proc.devRef .tc main_arg3)) := by
  dsimp only [hostOps0]; after_results; rfl

/-! ## The aggregation, in this program's own records

The aggregation of node features along the edges as the kernel program's host operations spell it, stage by stage;
each stage is the reference's stage of the same name (the two programs print the same operations over records of
their own), so the whole is the reference's `conv`. -/

section Aggregation

variable (h : Nodes) (e : Edges) (w : Weights)

/-- A row number read signed: a negative one is moved up by the node count. -/
def wrapK (v : IVec S1600000 32) : IVec S1600000x1 32 :=
  broadcastInDim S1600000x1 ![0] Facts₀.bcast_S1600000_S1600000x1_0
    (select (cmpi CmpIPredicate.slt v (broadcastInDim S1600000 ![] Facts₀.bcast_S_S1600000 (constantI S_ 32 0#32)))
      (addi v (broadcastInDim S1600000 ![] Facts₀.bcast_S_S1600000 (constantI S_ 32 100000#32))) v)

/-- The weighted in-degree of every node. -/
def degK : FVec Ideal S100000 .f32 :=
  Host.scatterAdd scatter_S100000_S1600000x1_S1600000_n_0_0_1
    (broadcastInDim S100000 ![] Facts₀.bcast_S_S100000 (constant (F := Ideal) S_ FTy.f32 0#32))
    (broadcastInDim S1600000x1 ![0] Facts₀.bcast_S1600000_S1600000x1_0 (Cert.ReferenceIdeal.Read.val_main_v3 (F := Ideal) e)) w

theorem degK_eq : degK e w = Cert.ReferenceIdeal.Read.val_main_v8 (F := Ideal) e w := rfl

/-- The guarded reciprocal square root of the degree. -/
def dinvK : FVec Ideal S100000 .f32 :=
  select (cmpf CmpFPredicate.ogt (degK e w) (broadcastInDim S100000 ![] Facts₀.bcast_S_S100000 (constant (F := Ideal) S_ FTy.f32 0#32)))
    (Host.rsqrt (degK e w)) (broadcastInDim S100000 ![] Facts₀.bcast_S_S100000 (id (constant (F := Ideal) S_ FTy.f32 0#32)))

theorem dinvK_eq : dinvK e w = Cert.ReferenceIdeal.Read.val_main_v12 (F := Ideal) e w := by
  unfold dinvK; rw [degK_eq]; rfl

theorem wrapK_src : wrapK (Cert.ReferenceIdeal.Read.val_main_v1 (F := Ideal) e) = Cert.ReferenceIdeal.Read.val_main_v18 (F := Ideal) e := rfl
theorem wrapK_dst : wrapK (Cert.ReferenceIdeal.Read.val_main_v3 (F := Ideal) e) = Cert.ReferenceIdeal.Read.val_main_v25 (F := Ideal) e := rfl
theorem wrapK_rows : wrapK (Cert.ReferenceIdeal.Read.val_main_v1 (F := Ideal) e) = Cert.ReferenceIdeal.Read.val_main_v34 (F := Ideal) e := rfl

/-- The coefficient of every edge from the nodes' factors `d`, repeated over the 128 channels. -/
def coeffK (d : FVec Ideal S100000 .f32) : FVec Ideal S1600000x128 .f32 :=
  broadcastInDim S1600000x128 ![0, 1] Facts₀.bcast_S1600000x1_S1600000x128_0_1
    (broadcastInDim S1600000x1 ![0] Facts₀.bcast_S1600000_S1600000x1_0
      (mulf (mulf (Host.gather gather_S100000_S1600000x1_S1600000_n_0_n_n_0_1_1 d (wrapK (Cert.ReferenceIdeal.Read.val_main_v1 (F := Ideal) e)))
          (Host.gather gather_S100000_S1600000x1_S1600000_n_0_n_n_0_1_1 d (wrapK (Cert.ReferenceIdeal.Read.val_main_v3 (F := Ideal) e)))) w))

theorem coeffK_eq : coeffK e w (dinvK e w) = Cert.ReferenceIdeal.Read.val_main_v37 (F := Ideal) e w := by
  unfold coeffK; rw [dinvK_eq, wrapK_src, wrapK_dst]; rfl

/-- The aggregation from the nodes' factors `d`. -/
def convK (d : FVec Ideal S100000 .f32) : FVec Ideal S100000x128 .f32 :=
  Host.scatterAdd scatter_S100000x128_S1600000x1_S1600000x128_1_0_0_1
    (broadcastInDim S100000x128 ![] Facts₀.bcast_S_S100000x128 (constant (F := Ideal) S_ FTy.f32 0#32))
    (broadcastInDim S1600000x1 ![0] Facts₀.bcast_S1600000_S1600000x1_0 (Cert.ReferenceIdeal.Read.val_main_v3 (F := Ideal) e))
    (mulf (Host.gather gather_S100000x128_S1600000x1_S1600000x128_1_0_n_n_0_1_1128 h (wrapK (Cert.ReferenceIdeal.Read.val_main_v1 (F := Ideal) e)))
      (coeffK e w d))

theorem convK_eq : convK h e w (dinvK e w) = conv h e w := by
  unfold convK; rw [coeffK_eq, wrapK_rows]; rfl

end Aggregation

/-! ## Between the launches: the aggregation of each layer's product -/

/-! ### After launch one: the three stretches one at a time -/

/-- The first stretch leaves the degree's comparison, its reciprocal square root and the zero they are guarded by. -/
theorem guard1_cmp (e : Edges) (w : Weights) (h3 : W (Proc.devRef .tc main_v3) = Cert.ReferenceIdeal.Read.val_main_v3 (F := Ideal) e)
    (hw : W (Proc.devRef .tc main_arg2) = w) :
    after (hostOps1 (F := Ideal)) W (Proc.devRef .tc main_v10)
      = cmpf CmpFPredicate.ogt (degK e w) (broadcastInDim S100000 ![] Facts₀.bcast_S_S100000 (constant (F := Ideal) S_ FTy.f32 0#32)) := by
  dsimp only [hostOps1]; after_results; rw [h3, hw]; rfl

theorem guard1_rsqrt (e : Edges) (w : Weights) (h3 : W (Proc.devRef .tc main_v3) = Cert.ReferenceIdeal.Read.val_main_v3 (F := Ideal) e)
    (hw : W (Proc.devRef .tc main_arg2) = w) :
    after (hostOps1 (F := Ideal)) W (Proc.devRef .tc main_v11) = Host.rsqrt (degK e w) := by
  dsimp only [hostOps1]; after_results; rw [h3, hw]; rfl

theorem guard1_zero : after (hostOps1 (F := Ideal)) W (Proc.devRef .tc main_cst_1) = constant (F := Ideal) S_ FTy.f32 0#32 := by
  dsimp only [hostOps1]; after_results

/-- The second stretch selects between them. -/
theorem factor1 (X : Valuation τ sig (Elt Ideal)) :
    after (hostOps1_1 (F := Ideal)) X (Proc.devRef .tc main_v12)
      = select (X (Proc.devRef .tc main_v10)) (X (Proc.devRef .tc main_v11))
          (broadcastInDim S100000 ![] Facts₀.bcast_S_S100000 (id (X (Proc.devRef .tc main_cst_1)))) := by
  dsimp only [hostOps1_1]; after_results; rfl

/-- The third stretch aggregates with the factors it finds. -/
theorem aggregate1 (X : Valuation τ sig (Elt Ideal)) (h : Nodes) (e : Edges) (w : Weights) (d : FVec Ideal S100000 .f32)
    (h1 : X (Proc.devRef .tc main_v1) = Cert.ReferenceIdeal.Read.val_main_v1 (F := Ideal) e)
    (h3 : X (Proc.devRef .tc main_v3) = Cert.ReferenceIdeal.Read.val_main_v3 (F := Ideal) e)
    (hw : X (Proc.devRef .tc main_arg2) = w) (hh : X (Proc.devRef .tc main_v5) = h) (hd : X (Proc.devRef .tc main_v12) = d) :
    after (hostOps1_2 (F := Ideal)) X (Proc.devRef .tc main_v41) = convK h e w d := by
  dsimp only [hostOps1_2]
  after_results_simp
  rw [h1, h3, hw, hh, hd]
  rfl

/-- After launch one: the aggregation of the layer's product. -/
theorem aggregated1 (h : Nodes) (e : Edges) (w : Weights)
    (h1 : W (Proc.devRef .tc main_v1) = Cert.ReferenceIdeal.Read.val_main_v1 (F := Ideal) e)
    (h3 : W (Proc.devRef .tc main_v3) = Cert.ReferenceIdeal.Read.val_main_v3 (F := Ideal) e)
    (hw : W (Proc.devRef .tc main_arg2) = w) (hh : W (Proc.devRef .tc main_v5) = h) :
    after (hostOps1_2 (F := Ideal)) (after (hostOps1_1 (F := Ideal)) (after (hostOps1 (F := Ideal)) W)) (Proc.devRef .tc main_v41)
      = conv h e w := by
  have k (r : Ref sig .tc) (ha : r ∉ Persist.hostOps1_W) (hb : r ∉ Persist.hostOps1_1_W) :
      after (hostOps1_1 (F := Ideal)) (after (hostOps1 (F := Ideal)) W) (Proc.devRef .tc r) = W (Proc.devRef .tc r) :=
    (Persist.keep1_1 _ r hb).trans (Persist.keep1 _ r ha)
  have hd : after (hostOps1_1 (F := Ideal)) (after (hostOps1 (F := Ideal)) W) (Proc.devRef .tc main_v12) = dinvK e w := by
    rw [factor1, guard1_cmp W e w h3 hw, guard1_rsqrt W e w h3 hw, guard1_zero W]
    rfl
  exact (aggregate1 _ h e w (dinvK e w) ((k main_v1 (by decide) (by decide)).trans h1) ((k main_v3 (by decide) (by decide)).trans h3)
    ((k main_arg2 (by decide) (by decide)).trans hw) ((k main_v5 (by decide) (by decide)).trans hh) hd).trans (convK_eq h e w)

/-! ### After launch four: the three stretches one at a time -/

/-- The first stretch leaves the degree's comparison, its reciprocal square root and the zero they are guarded by. -/
theorem guard4_cmp (e : Edges) (w : Weights) (h3 : W (Proc.devRef .tc main_v3) = Cert.ReferenceIdeal.Read.val_main_v3 (F := Ideal) e)
    (hw : W (Proc.devRef .tc main_arg2) = w) :
    after (hostOps4 (F := Ideal)) W (Proc.devRef .tc main_v61)
      = cmpf CmpFPredicate.ogt (degK e w) (broadcastInDim S100000 ![] Facts₀.bcast_S_S100000 (constant (F := Ideal) S_ FTy.f32 0#32)) := by
  dsimp only [hostOps4]; after_results; rw [h3, hw]; rfl

theorem guard4_rsqrt (e : Edges) (w : Weights) (h3 : W (Proc.devRef .tc main_v3) = Cert.ReferenceIdeal.Read.val_main_v3 (F := Ideal) e)
    (hw : W (Proc.devRef .tc main_arg2) = w) :
    after (hostOps4 (F := Ideal)) W (Proc.devRef .tc main_v62) = Host.rsqrt (degK e w) := by
  dsimp only [hostOps4]; after_results; rw [h3, hw]; rfl

theorem guard4_zero : after (hostOps4 (F := Ideal)) W (Proc.devRef .tc main_cst_13) = constant (F := Ideal) S_ FTy.f32 0#32 := by
  dsimp only [hostOps4]; after_results

/-- The second stretch selects between them. -/
theorem factor4 (X : Valuation τ sig (Elt Ideal)) :
    after (hostOps4_1 (F := Ideal)) X (Proc.devRef .tc main_v63)
      = select (X (Proc.devRef .tc main_v61)) (X (Proc.devRef .tc main_v62))
          (broadcastInDim S100000 ![] Facts₀.bcast_S_S100000 (id (X (Proc.devRef .tc main_cst_13)))) := by
  dsimp only [hostOps4_1]; after_results; rfl

/-- The third stretch aggregates with the factors it finds. -/
theorem aggregate4 (X : Valuation τ sig (Elt Ideal)) (h : Nodes) (e : Edges) (w : Weights) (d : FVec Ideal S100000 .f32)
    (h1 : X (Proc.devRef .tc main_v1) = Cert.ReferenceIdeal.Read.val_main_v1 (F := Ideal) e)
    (h3 : X (Proc.devRef .tc main_v3) = Cert.ReferenceIdeal.Read.val_main_v3 (F := Ideal) e)
    (hw : X (Proc.devRef .tc main_arg2) = w) (hh : X (Proc.devRef .tc main_v56) = h) (hd : X (Proc.devRef .tc main_v63) = d) :
    after (hostOps4_2 (F := Ideal)) X (Proc.devRef .tc main_v92) = convK h e w d := by
  dsimp only [hostOps4_2]
  after_results_simp
  rw [h1, h3, hw, hh, hd]
  rfl

/-- After launch four: the aggregation of the layer's product. -/
theorem aggregated4 (h : Nodes) (e : Edges) (w : Weights)
    (h1 : W (Proc.devRef .tc main_v1) = Cert.ReferenceIdeal.Read.val_main_v1 (F := Ideal) e)
    (h3 : W (Proc.devRef .tc main_v3) = Cert.ReferenceIdeal.Read.val_main_v3 (F := Ideal) e)
    (hw : W (Proc.devRef .tc main_arg2) = w) (hh : W (Proc.devRef .tc main_v56) = h) :
    after (hostOps4_2 (F := Ideal)) (after (hostOps4_1 (F := Ideal)) (after (hostOps4 (F := Ideal)) W)) (Proc.devRef .tc main_v92)
      = conv h e w := by
  have k (r : Ref sig .tc) (ha : r ∉ Persist.hostOps4_W) (hb : r ∉ Persist.hostOps4_1_W) :
      after (hostOps4_1 (F := Ideal)) (after (hostOps4 (F := Ideal)) W) (Proc.devRef .tc r) = W (Proc.devRef .tc r) :=
    (Persist.keep4_1 _ r hb).trans (Persist.keep4 _ r ha)
  have hd : after (hostOps4_1 (F := Ideal)) (after (hostOps4 (F := Ideal)) W) (Proc.devRef .tc main_v63) = dinvK e w := by
    rw [factor4, guard4_cmp W e w h3 hw, guard4_rsqrt W e w h3 hw, guard4_zero W]
    rfl
  exact (aggregate4 _ h e w (dinvK e w) ((k main_v1 (by decide) (by decide)).trans h1) ((k main_v3 (by decide) (by decide)).trans h3)
    ((k main_arg2 (by decide) (by decide)).trans hw) ((k main_v56 (by decide) (by decide)).trans hh) hd).trans (convK_eq h e w)

end Cert.KernelIdeal.HostStretches

end
-- ==== Proof.HostMoments.lean ====
/- The short stretches of host operations between the regions, read entry by entry from any contents of the
   buffers they find: the column means and inverse standard deviations computed from the two accumulated column
   sums, the bias vectors laid out as one row, and the transposed weights. -/
import proofs.«163066_j80083960201233_1_alg».proof.Proof.Gen.KernelIdeal.Launch
import proofs.«163066_j80083960201233_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostMoments

open Cert.KernelIdeal Cert.KernelIdeal.Gen Idealize.ShloMosaic Idealize.ShloMosaic.TcCoe Idealize.ShloMosaic.StableHlo
open Idealize.ShloMosaic.ValueIdx Idealize.SL.Sem

variable (W : Valuation τ sig (Elt Ideal))

/-- The column mean: the first accumulated column sum divided by the number of rows. -/
theorem mean_at (j : Fin 128) :
    after (hostOps2 (F := Ideal)) W (Proc.devRef .tc main_v45) (ix2 (0 : Fin 1) j)
      = Ideal.div (W (Proc.devRef .tc main_v43_0) (ix2 (0 : Fin 1) j)) (Ideal.ofBits .f32 0x47C35000#32) := by
  dsimp only [hostOps2]
  after_results
  rfl

/-- The column's inverse standard deviation: the reciprocal square root of the mean of squares minus the
    squared mean, plus the small constant. -/
theorem invstd_at (j : Fin 128) :
    after (hostOps2 (F := Ideal)) W (Proc.devRef .tc main_v52) (ix2 (0 : Fin 1) j)
      = Ideal.rsqrt ((Ideal.div (W (Proc.devRef .tc main_v43_1) (ix2 (0 : Fin 1) j)) (Ideal.ofBits .f32 0x47C35000#32)
            - Ideal.div (W (Proc.devRef .tc main_v43_0) (ix2 (0 : Fin 1) j)) (Ideal.ofBits .f32 0x47C35000#32)
              * Ideal.div (W (Proc.devRef .tc main_v43_0) (ix2 (0 : Fin 1) j)) (Ideal.ofBits .f32 0x47C35000#32))
          + Ideal.ofBits .f32 0x3727C5AC#32) := by
  dsimp only [hostOps2]
  after_results
  rfl

/-- The first bias vector laid out as one row, as the third stretch leaves it. -/
theorem bias_row2 (j : Fin 128) :
    after (hostOps2 (F := Ideal)) W (Proc.devRef .tc main_v53) (ix2 (0 : Fin 1) j)
      = W (Proc.devRef .tc main_arg4) (ix1 j) := by
  dsimp only [hostOps2]
  after_results
  exact shapeCast_a_1a_apply _ _ (0 : Fin 1) j

/-- The transposed second weight matrix, as the reference names it. -/
theorem weightsT3 :
    after (hostOps3 (F := Ideal)) W (Proc.devRef .tc main_v55)
      = Cert.ReferenceIdeal.Read.val_main_v65 (F := Ideal) (W (Proc.devRef .tc main_arg5)) := by
  dsimp only [hostOps3]
  after_results
  rfl

/-- The last operation of the second stretch's third list lays the first bias vector out as one row, whatever
    the contents it starts from. -/
theorem row_of_bias1 (X : Valuation τ sig (Elt Ideal)) (j : Fin 128) :
    after (hostOps1_2 (F := Ideal)) X (Proc.devRef .tc main_v42) (ix2 (0 : Fin 1) j)
      = X (Proc.devRef .tc main_arg4) (ix1 j) := by
  dsimp only [hostOps1_2]
  after_results_simp
  exact shapeCast_a_1a_apply _ _ (0 : Fin 1) j

/-- The second stretch's first two lists leave the first bias vector alone. -/
theorem bias1_kept (X : Valuation τ sig (Elt Ideal)) :
    after (hostOps1_1 (F := Ideal)) (after (hostOps1 (F := Ideal)) X) (Proc.devRef .tc main_arg4)
      = X (Proc.devRef .tc main_arg4) := by
  dsimp only [hostOps1_1, hostOps1]
  after_results

/-- The first bias vector laid out as one row, as the second stretch leaves it. -/
theorem bias_row1 (j : Fin 128) :
    after (hostOps1_2 (F := Ideal)) (after (hostOps1_1 (F := Ideal)) (after (hostOps1 (F := Ideal)) W))
        (Proc.devRef .tc main_v42) (ix2 (0 : Fin 1) j)
      = W (Proc.devRef .tc main_arg4) (ix1 j) := by
  rw [row_of_bias1, bias1_kept]

/-- The last operation of the fifth stretch's third list lays the second bias vector out as one row, whatever
    the contents it starts from. -/
theorem row_of_bias2 (X : Valuation τ sig (Elt Ideal)) (j : Fin 128) :
    after (hostOps4_2 (F := Ideal)) X (Proc.devRef .tc main_v93) (ix2 (0 : Fin 1) j)
      = X (Proc.devRef .tc main_arg6) (ix1 j) := by
  dsimp only [hostOps4_2]
  after_results_simp
  exact shapeCast_a_1a_apply _ _ (0 : Fin 1) j

/-- The fifth stretch's first two lists leave the second bias vector alone. -/
theorem bias2_kept (X : Valuation τ sig (Elt Ideal)) :
    after (hostOps4_1 (F := Ideal)) (after (hostOps4 (F := Ideal)) X) (Proc.devRef .tc main_arg6)
      = X (Proc.devRef .tc main_arg6) := by
  dsimp only [hostOps4_1, hostOps4]
  after_results

/-- The second bias vector laid out as one row, as the fifth stretch leaves it. -/
theorem bias_row4 (j : Fin 128) :
    after (hostOps4_2 (F := Ideal)) (after (hostOps4_1 (F := Ideal)) (after (hostOps4 (F := Ideal)) W))
        (Proc.devRef .tc main_v93) (ix2 (0 : Fin 1) j)
      = W (Proc.devRef .tc main_arg6) (ix1 j) := by
  rw [row_of_bias2, bias2_kept]

end Cert.KernelIdeal.HostMoments

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibRowBlockProduct.lean ====
/-
  A block of rows of a matrix product is the product of that block of rows.

  Let A be an M × k matrix, B a k × n matrix, and X an mb × k matrix whose row p is row r of A. Then the product
  X · B accumulated into zero has, at entry (p, q), the value of the whole product A · B at entry (r, q): both are
  the sum over the k contracted coordinates c of A(r, c) · B(c, q). The left side is the matrix unit's product
  started from an accumulator of zeros; the right side is the host's `dot_general`. Only the two rows have to agree,
  entry by entry; nothing is asked of the other rows, and no entry has to be finite (a finite sum of products on the
  extended reals is a function of its terms).
-/
import proofs.«163066_j80083960201233_1_alg».proof.Proof.LibPlainMatmul
import proofs.«163066_j80083960201233_1_alg».proof.Proof.LibPlainDotGeneral

open scoped BigOperators

namespace Idealize.ShloMosaic.ValueIdx

open Idealize.ShloMosaic

/-- Row `p` of the block product `X · Y` (into zero) is row `r` of the whole product `A · B`, when row `p` of `X` is
    row `r` of `A` and column `q` of `Y` is column `q` of `B`. -/
theorem matmul_rowblock_apply {M mb k n : ℕ} {φ₁ φ₂ ψ₁ ψ₂ : FTy}
    (wb : DotDims.WF ⟨2, ![mb, k]⟩ ⟨2, ![k, n]⟩ ⟨2, ![mb, n]⟩ [1] [0] [0] [1] [] [])
    (wa : DotDims.WF ⟨2, ![M, k]⟩ ⟨2, ![k, n]⟩ ⟨2, ![M, n]⟩ [1] [0] [0] [1] [] [])
    (prec prec' : Option ContractPrecision)
    (A : FVec Ideal ⟨2, ![M, k]⟩ ψ₁) (B : FVec Ideal ⟨2, ![k, n]⟩ ψ₂)
    (X : FVec Ideal ⟨2, ![mb, k]⟩ φ₁) (Y : FVec Ideal ⟨2, ![k, n]⟩ φ₂)
    (p : Fin mb) (q : Fin n) (r : Fin M)
    (hX : ∀ c : Fin k, X (ix2 p c) = A (ix2 r c)) (hY : ∀ c : Fin k, Y (ix2 c q) = B (ix2 c q)) :
    matmul (⟨[1], [0], [0], [1], [], [], wb⟩ : DotDims ⟨2, ![mb, k]⟩ ⟨2, ![k, n]⟩ ⟨2, ![mb, n]⟩) prec X Y
        (constant (F := Ideal) ⟨2, ![mb, n]⟩ .f32 0x00000000#32) (ix2 p q)
      = Host.dotGeneral (⟨[1], [0], [0], [1], [], [], wa⟩ : DotDims ⟨2, ![M, k]⟩ ⟨2, ![k, n]⟩ ⟨2, ![M, n]⟩) prec' A B (ix2 r q) := by
  rw [matmul_plain_zero_apply wb prec X Y p q, dotGeneral_plain_apply wa prec' A B r q]
  exact Finset.sum_congr rfl fun c _ => by rw [hX c, hY c]

end Idealize.ShloMosaic.ValueIdx
-- ==== Proof.MatmulRegions.lean ====
/-
  The two dense layers of the kernel program, read as whole arrays.

  Each matmul region cuts the [100000,128] left operand into ten blocks of 10000 rows, multiplies each block by the whole
  [128,128] right operand into a zero accumulator, and writes the block of products back at the same rows. Row p of
  block t is row 10000·t + p of the array, and a row of a product depends on that row of the left operand only; so
  the array the region leaves is the product of the two whole arrays, entry by entry the sum over the 128 contracted
  channels — which is what the host's dot_general of the two arrays is.
-/
import proofs.«163066_j80083960201233_1_alg».proof.Proof.Gen.KernelIdeal.Frame
import proofs.«163066_j80083960201233_1_alg».proof.ReferenceIdeal
import proofs.«163066_j80083960201233_1_alg».proof.Proof.Gen.ReferenceIdeal
import proofs.«163066_j80083960201233_1_alg».proof.Proof.LibRowBlockProduct
import Idealize.ShloMosaic.Lib.Pipeline.Value
import Idealize.ShloMosaic.Lib.ValueIdx

set_option maxRecDepth 16384

noncomputable section

namespace Cert.KernelIdeal.MatmulRegions

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of the two whole arrays, in the host's spelling. -/
abbrev product (A : FVec Ideal S100000x128 .f32) (B : FVec Ideal S128x128 .f32) : FVec Ideal S100000x128 .f32 :=
  Host.dotGeneral Cert.ReferenceIdeal.dot_S100000x128_S128x128_S100000x128_1_0_0_1_n_n none A B

/-! ## Region 0 -/

/-- The block's payload at entry (p, q) is the whole product at (r, q), when row p of the block is row r of the array. -/
theorem pay0_apply (x0 : FVec Ideal S10000x128 .f32) (x1 : FVec Ideal S128x128 .f32)
    (A : FVec Ideal S100000x128 .f32) (B : FVec Ideal S128x128 .f32) (p : Fin 10000) (q : Fin 128) (r : Fin 100000)
    (hX : ∀ k : Fin 128, x0 (ix2 p k) = A (ix2 r k)) (hY : ∀ k : Fin 128, x1 (ix2 k q) = B (ix2 k q)) :
    k0_pay1 (F := Ideal) x0 x1 (ix2 p q) = product A B (ix2 r q) := by
  unfold k0_pay1
  exact matmul_rowblock_apply Facts₀.dot_S10000x128_S128x128_S10000x128_1_0_0_1_n_n_wf
    Cert.ReferenceIdeal.Facts₀.dot_S100000x128_S128x128_S100000x128_1_0_0_1_n_n_wf none none A B x0
    (shapeCast S128x128 x1 Facts₀.shapeCasts_S128x128_S128x128) p q r (fun k => by rw [hX k]) (fun k => by rw [shapeCast_self, hY k])

/-- The printed index maps over the grid: the row-block windows move with the point, the right operand's stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the left operand's block at point t is row 10000·t + p of its array. -/
theorem lhs0_read (c : Dev nD) (t : Fin cfg0.N) (p : Fin 10000) (k : Fin 128) (r : Fin 100000) (hr : r.val = t.val * 10000 + p.val) :
    iblk0 V c 0 t (ix2 p k) = V c main_arg0 (ix2 r k) := by
  obtain ⟨e0, e1, -, -, -, -⟩ := idx_facts0 t
  show V c main_arg0 (((cfg0.win 0).blk t).view.emb (ix2 p k)) = V c main_arg0 (ix2 r k)
  refine congrArg (V c main_arg0) ?_
  funext a; apply Fin.ext
  match a with
  | ⟨0, _⟩ => show win0_0.index t (0 : Fin 2) * 10000 + 1 * p.val = r.val; omega
  | ⟨1, _⟩ => show win0_0.index t (1 : Fin 2) * 128 + 1 * k.val = k.val; omega

/-- The right operand's one block is its array. -/
theorem rhs0_read (c : Dev nD) (t : Fin cfg0.N) (k : Fin 128) (q : Fin 128) :
    iblk0 V c 1 t (ix2 k q) = V c main_v4 (ix2 k q) := by
  obtain ⟨-, -, e2, e3, -, -⟩ := idx_facts0 t
  show V c main_v4 (((cfg0.win 1).blk t).view.emb (ix2 k q)) = V c main_v4 (ix2 k q)
  refine congrArg (V c main_v4) ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- What point t writes back is block t of the product of the two arrays as the region finds them. -/
theorem flushed0_eq (c : Dev nD) (t : Fin cfg0.N) :
    (dat0 V c).flushed 2 t = ((cfg0.win 2).blk t).view.read (Elt Ideal) (product (V c main_arg0) (V c main_v4)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨-, -, -, -, e4, e5⟩ := idx_facts0 t
  funext y
  obtain ⟨p, q, rfl⟩ : ∃ (p : Fin 10000) (q : Fin 128), y = ix2 p q := ⟨y 0, y 1, eq_ix2 y⟩
  have hlt : t.val * 10000 + p.val < 100000 := by
    have ht : t.val < 10 := by have h := t.isLt; have hN : cfg0.N = 10 := N_0; omega
    have hp := p.isLt; omega
  refine (pay0_apply (iblk0 V c 0 t) (iblk0 V c 1 t) (V c main_arg0) (V c main_v4) p q ⟨t.val * 10000 + p.val, hlt⟩
    (fun k => lhs0_read V c t p k ⟨t.val * 10000 + p.val, hlt⟩ rfl) (fun k => rhs0_read V c t k q)).trans ?_
  show product (V c main_arg0) (V c main_v4) (ix2 ⟨t.val * 10000 + p.val, hlt⟩ q)
    = product (V c main_arg0) (V c main_v4) (((cfg0.win 2).blk t).view.emb (ix2 p q))
  refine congrArg (product (V c main_arg0) (V c main_v4)) ?_
  funext a; apply Fin.ext
  match a with
  | ⟨0, _⟩ => show t.val * 10000 + p.val = win0_2.index t (0 : Fin 2) * 10000 + 1 * p.val; omega
  | ⟨1, _⟩ => show q.val = win0_2.index t (1 : Fin 2) * 128 + 1 * q.val; omega

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v5).slice (win0_2.rect t)).set ↔ _
  rw [View.set_slice_whole, Rect.mem_set_unit]
  exact Iff.rfl

/-- The array region 0 leaves: the product of the two arrays it finds. -/
theorem final0 (c : Dev nD) : (dat0 V c).arrAt 2 cfg0.N = product (V c main_arg0) (V c main_v4) :=
  (dat0 V c).arrAt_eq_of_cover 2 (product (V c main_arg0) (V c main_v4)) (fun t _ => flushed0_eq V c t) fun i => by
    have hi0 : (i 0).val < 100000 := (i 0).isLt
    have hi1 : (i 1).val < 128 := (i 1).isLt
    have hN : cfg0.N = 10 := N_0
    let t : Fin cfg0.N := ⟨(i 0).val / 10000, by rw [hN]; omega⟩
    obtain ⟨-, -, -, -, e4, e5⟩ := idx_facts0 t
    have ht : t.val = (i 0).val / 10000 := rfl
    refine ⟨t, flush0_2 t, ?_⟩
    rw [mem_blk0]
    intro a
    match a with
    | ⟨0, _⟩ => show win0_2.index t (0 : Fin 2) * 10000 ≤ (i 0).val ∧ (i 0).val < win0_2.index t (0 : Fin 2) * 10000 + 10000; omega
    | ⟨1, _⟩ => show win0_2.index t (1 : Fin 2) * 128 ≤ (i 1).val ∧ (i 1).val < win0_2.index t (1 : Fin 2) * 128 + 128; omega

/-! ## Region 3 -/

/-- The block's payload at entry (p, q) is the whole product at (r, q), when row p of the block is row r of the array. -/
theorem pay3_apply (x0 : FVec Ideal S10000x128 .f32) (x1 : FVec Ideal S128x128 .f32)
    (A : FVec Ideal S100000x128 .f32) (B : FVec Ideal S128x128 .f32) (p : Fin 10000) (q : Fin 128) (r : Fin 100000)
    (hX : ∀ k : Fin 128, x0 (ix2 p k) = A (ix2 r k)) (hY : ∀ k : Fin 128, x1 (ix2 k q) = B (ix2 k q)) :
    k3_pay1 (F := Ideal) x0 x1 (ix2 p q) = product A B (ix2 r q) := by
  unfold k3_pay1
  exact matmul_rowblock_apply Facts₀.dot_S10000x128_S128x128_S10000x128_1_0_0_1_n_n_wf
    Cert.ReferenceIdeal.Facts₀.dot_S100000x128_S128x128_S100000x128_1_0_0_1_n_n_wf none none A B (shapeCast S10000x128 x0 Facts₀.shapeCasts_S10000x128_S10000x128)
    (shapeCast S128x128 x1 Facts₀.shapeCasts_S128x128_S128x128) p q r (fun k => by rw [shapeCast_self, hX k]) (fun k => by rw [shapeCast_self, hY k])

/-- The printed index maps over the grid: the row-block windows move with the point, the right operand's stays. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of the left operand's block at point t is row 10000·t + p of its array. -/
theorem lhs3_read (c : Dev nD) (t : Fin cfg3.N) (p : Fin 10000) (k : Fin 128) (r : Fin 100000) (hr : r.val = t.val * 10000 + p.val) :
    iblk3 V c 0 t (ix2 p k) = V c main_v54 (ix2 r k) := by
  obtain ⟨e0, e1, -, -, -, -⟩ := idx_facts3 t
  show V c main_v54 (((cfg3.win 0).blk t).view.emb (ix2 p k)) = V c main_v54 (ix2 r k)
  refine congrArg (V c main_v54) ?_
  funext a; apply Fin.ext
  match a with
  | ⟨0, _⟩ => show win3_0.index t (0 : Fin 2) * 10000 + 1 * p.val = r.val; omega
  | ⟨1, _⟩ => show win3_0.index t (1 : Fin 2) * 128 + 1 * k.val = k.val; omega

/-- The right operand's one block is its array. -/
theorem rhs3_read (c : Dev nD) (t : Fin cfg3.N) (k : Fin 128) (q : Fin 128) :
    iblk3 V c 1 t (ix2 k q) = V c main_v55 (ix2 k q) := by
  obtain ⟨-, -, e2, e3, -, -⟩ := idx_facts3 t
  show V c main_v55 (((cfg3.win 1).blk t).view.emb (ix2 k q)) = V c main_v55 (ix2 k q)
  refine congrArg (V c main_v55) ?_
  funext a; apply Fin.ext
  match a with
  | ⟨0, _⟩ => show win3_1.index t (0 : Fin 2) * 128 + 1 * k.val = k.val; omega
  | ⟨1, _⟩ => show win3_1.index t (1 : Fin 2) * 128 + 1 * q.val = q.val; omega

/-- What point t writes back is block t of the product of the two arrays as the region finds them. -/
theorem flushed3_eq (c : Dev nD) (t : Fin cfg3.N) :
    (dat3 V c).flushed 2 t = ((cfg3.win 2).blk t).view.read (Elt Ideal) (product (V c main_v54) (V c main_v55)) := by
  show (cfg3.win 2).cut (grid3.coords t) ((dat3 V c).after 2 t) = _
  rw [after3_2]
  unfold out3_2
  rw [View.canon_unit_zero hz]
  simp only [View.ld_unit_zero (S := S10000x128) hz, View.ld_unit_zero (S := S128x128) hz]
  obtain ⟨-, -, -, -, e4, e5⟩ := idx_facts3 t
  funext y
  obtain ⟨p, q, rfl⟩ : ∃ (p : Fin 10000) (q : Fin 128), y = ix2 p q := ⟨y 0, y 1, eq_ix2 y⟩
  have hlt : t.val * 10000 + p.val < 100000 := by
    have ht : t.val < 10 := by have h := t.isLt; have hN : cfg3.N = 10 := N_3; omega
    have hp := p.isLt; omega
  refine (pay3_apply (iblk3 V c 0 t) (iblk3 V c 1 t) (V c main_v54) (V c main_v55) p q ⟨t.val * 10000 + p.val, hlt⟩
    (fun k => lhs3_read V c t p k ⟨t.val * 10000 + p.val, hlt⟩ rfl) (fun k => rhs3_read V c t k q)).trans ?_
  show product (V c main_v54) (V c main_v55) (ix2 ⟨t.val * 10000 + p.val, hlt⟩ q)
    = product (V c main_v54) (V c main_v55) (((cfg3.win 2).blk t).view.emb (ix2 p q))
  refine congrArg (product (V c main_v54) (V c main_v55)) ?_
  funext a; apply Fin.ext
  match a with
  | ⟨0, _⟩ => show t.val * 10000 + p.val = win3_2.index t (0 : Fin 2) * 10000 + 1 * p.val; omega
  | ⟨1, _⟩ => show q.val = win3_2.index t (1 : Fin 2) * 128 + 1 * q.val; omega

/-- An index of the output array is in point t's block iff each coordinate is in the block's range on its axis. -/
theorem mem_blk3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v56).slice (win3_2.rect t)).set ↔ _
  rw [View.set_slice_whole, Rect.mem_set_unit]
  exact Iff.rfl

/-- The array region 3 leaves: the product of the two arrays it finds. -/
theorem final3 (c : Dev nD) : (dat3 V c).arrAt 2 cfg3.N = product (V c main_v54) (V c main_v55) :=
  (dat3 V c).arrAt_eq_of_cover 2 (product (V c main_v54) (V c main_v55)) (fun t _ => flushed3_eq V c t) fun i => by
    have hi0 : (i 0).val < 100000 := (i 0).isLt
    have hi1 : (i 1).val < 128 := (i 1).isLt
    have hN : cfg3.N = 10 := N_3
    let t : Fin cfg3.N := ⟨(i 0).val / 10000, by rw [hN]; omega⟩
    obtain ⟨-, -, -, -, e4, e5⟩ := idx_facts3 t
    have ht : t.val = (i 0).val / 10000 := rfl
    refine ⟨t, flush3_2 t, ?_⟩
    rw [mem_blk3]
    intro a
    match a with
    | ⟨0, _⟩ => show win3_2.index t (0 : Fin 2) * 10000 ≤ (i 0).val ∧ (i 0).val < win3_2.index t (0 : Fin 2) * 10000 + 10000; omega
    | ⟨1, _⟩ => show win3_2.index t (1 : Fin 2) * 128 ≤ (i 1).val ∧ (i 1).val < win3_2.index t (1 : Fin 2) * 128 + 128; omega

end Cert.KernelIdeal.MatmulRegions

end
-- ==== Proof.LibColumnSum.lean ====
/-
  The sum down the columns of a matrix, read at a column.

  Summing an [a, b] matrix over its FIRST axis leaves a vector of length b whose entry j is the sum of the a entries of
  column j. The general statement names the summed entries through the index "entry j with coordinate k inserted on the
  summed axis"; for a matrix and axis 0 that index is (k, j). (The companion for the second axis is the row sum.)
-/
import Idealize.ShloMosaic.PureOps.Ideal.Laws
import Idealize.ShloMosaic.Lib.ValueIdx

open scoped BigOperators

namespace Idealize.ShloMosaic.ValueIdx

open Idealize.ShloMosaic

/-- Inserting coordinate `k` on axis 0 over the column index `j` gives the matrix index `(k, j)`. -/
theorem reduces_cols_lift {a b : ℕ} (h : (⟨2, ![a, b]⟩ : Shape).Reduces [0] ⟨1, ![b]⟩) (j : Fin b) (k : Fin a) :
    h.lift (ix1 j) k = ix2 k j := by
  funext ax; apply Fin.ext
  show h.liftVal (ix1 j) k.val ax = (ix2 k j ax).val
  unfold Shape.Reduces.liftVal
  match ax with
  | ⟨0, _⟩ => rfl
  | ⟨1, _⟩ => rfl

/-- The sum of an `[a, b]` matrix over axis 0, at the exact extended reals, read at column `j`: the sum of that column. -/
theorem multiReduction_add_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (reduces_cols_lift h j k)

end Idealize.ShloMosaic.ValueIdx
-- ==== Proof.StatsRegion.lean ====
/-
  The statistics region: column sums and column sums of squares of a shifted matrix, accumulated over ten row blocks.

  The region reads a [100000,128] matrix h in ten blocks of 10000 rows and a [1,128] row vector b, and keeps two
  [1,128] accumulators. At the first block it zeroes both; at every block it adds to the first the column sums of the
  shifted block t = h + b (b added to every row) and to the second the column sums of t·t. Read at the exact extended
  reals: after block n the accumulators hold the sums over the rows of blocks 0 … n — an induction on the block, whose
  step regroups a sum over the first (n+1)·10000 row numbers as the sum over the first n·10000 and the sum over block
  n's 10000 — and each output array, being its accumulator's one block written back after the last block, ends holding
  the sum over all 100000 rows.
-/
import proofs.«163066_j80083960201233_1_alg».proof.Proof.Gen.KernelIdeal.Frame
import proofs.«163066_j80083960201233_1_alg».proof.Proof.LibColumnSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem
open Idealize.ShloMosaic.Pipeline (Dat)

namespace Cert.KernelIdeal.StatsRegion

open Cert.KernelIdeal Cert.KernelIdeal.Gen Idealize.ShloMosaic.ValueIdx

/-! ## What each case leaves in the two accumulators, as payloads of the loaded blocks -/

section Pieces
variable {F : FTy → Type} [FloatOps F]

theorem hz : (![0, 0] : Fin 2 → Nat) = fun _ => 0 := funext fun a => by fin_cases a <;> rfl

/-- At a later point the column-sum accumulator holding `xo2` is left at `xo2` plus the block's column sums. -/
theorem out_B_2 (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S10000x128 .f32) (x1 xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h3.read_unread,
    View.ld_unit_zero (S := S10000x128) hz, View.ld_unit_zero (S := S1x128) hz]

/-- At a later point the sum-of-squares accumulator holding `xo3` is left at `xo3` plus the block's column sums of squares. -/
theorem out_B_3 (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S10000x128 .f32) (x1 xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h4.read_unread,
    View.ld_unit_zero (S := S10000x128) hz, View.ld_unit_zero (S := S1x128) hz]

/-- At the first point the column-sum accumulator is zeroed, read back, and left at zero plus the block's column sums. -/
theorem out_A_2 (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S10000x128 .f32) (x1 : Vec F S1x128 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread,
    View.ld_unit_zero (S := S10000x128) hz, View.ld_unit_zero (S := S1x128) hz]

/-- At the first point the sum-of-squares accumulator is zeroed, read back, and left at zero plus the block's column sums of squares. -/
theorem out_A_3 (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S10000x128 .f32) (x1 : Vec F S1x128 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread,
    View.ld_unit_zero (S := S10000x128) hz, View.ld_unit_zero (S := S1x128) hz]

end Pieces

/-! ## The payloads at an index, over the extended reals -/

/-- The shifted block `t = h + b` at row `q`, column `j`: the block's entry plus the row vector's entry of that column. -/
theorem shifted_apply (x0 : Vec Ideal S10000x128 .f32) (x1 : Vec Ideal S1x128 .f32) (q : Fin 10000) (j : Fin 128) :
    k1_pay3 (F := Ideal) x0 x1 (ix2 q j) = x0 (ix2 q j) + x1 (ix2 (0 : Fin 1) j) := by
  unfold k1_pay3
  rw [shapeCast_self, shapeCast_self]
  refine (addf_apply _ _ _).trans ?_
  exact congrArg (x0 (ix2 q j) + ·) (broadcastTo_1b_ab_apply x1 _ q j)

/-- The zero word the first point stores is the extended real 0. -/
theorem zero2_apply (j : Fin 128) : k1_pay1 (F := Ideal) (ix2 (0 : Fin 1) j) = 0 := by
  unfold k1_pay1
  exact Ideal.ofBits_zero_f32
theorem zero3_apply (j : Fin 128) : k1_pay2 (F := Ideal) (ix2 (0 : Fin 1) j) = 0 := by
  unfold k1_pay2
  exact Ideal.ofBits_zero_f32

/-- The column-sum step at column `j`: the accumulator's entry plus the sum of the shifted block down that column. -/
theorem sum_step_apply (x0 : Vec Ideal S10000x128 .f32) (x1 acc : Vec Ideal S1x128 .f32) (j : Fin 128) :
    k1_pay4 (F := Ideal) x0 x1 acc (ix2 (0 : Fin 1) j)
      = acc (ix2 (0 : Fin 1) j) + ∑ q : Fin 10000, (x0 (ix2 q j) + x1 (ix2 (0 : Fin 1) j)) := by
  unfold k1_pay4
  dsimp only
  rw [shapeCast_self]
  refine (addf_apply _ _ _).trans ?_
  refine congrArg (acc (ix2 (0 : Fin 1) j) + ·) ?_
  refine (shapeCast_a_1a_apply _ _ (0 : Fin 1) j).trans ?_
  refine (multiReduction_add_cols_apply (k1_pay3 (F := Ideal) x0 x1) _ _ _ _ j).trans ?_
  exact Finset.sum_congr rfl fun q _ => shifted_apply x0 x1 q j

/-- The sum-of-squares step at column `j`: the accumulator's entry plus the sum of the squares of the shifted block down that column. -/
theorem sq_step_apply (x0 : Vec Ideal S10000x128 .f32) (x1 acc : Vec Ideal S1x128 .f32) (j : Fin 128) :
    k1_pay5 (F := Ideal) x0 x1 acc (ix2 (0 : Fin 1) j)
      = acc (ix2 (0 : Fin 1) j) + ∑ q : Fin 10000, (x0 (ix2 q j) + x1 (ix2 (0 : Fin 1) j)) * (x0 (ix2 q j) + x1 (ix2 (0 : Fin 1) j)) := by
  unfold k1_pay5
  dsimp only
  rw [shapeCast_self]
  refine (addf_apply _ _ _).trans ?_
  refine congrArg (acc (ix2 (0 : Fin 1) j) + ·) ?_
  refine (shapeCast_a_1a_apply _ _ (0 : Fin 1) j).trans ?_
  refine (multiReduction_add_cols_apply (mulf (k1_pay3 (F := Ideal) x0 x1) (k1_pay3 (F := Ideal) x0 x1)) _ _ _ _ j).trans ?_
  refine Finset.sum_congr rfl fun q _ => ?_
  refine (mulf_apply _ _ _).trans ?_
  rw [shifted_apply x0 x1 q j]

/-! ## The blocks the body loads, read in the region's input arrays -/

variable (V : (c : Dev nD) → (b : Ref sig .tc) → Buf (Elt Ideal) ((c : Thread nD τ).loc b))

/-- The printed index maps over the grid: at point `t` the matrix's block is block `(t, 0)`, the row vector's `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- Row `q` of the matrix's block at point `t` is row `10000 t + q` of the matrix. -/
theorem blk_matrix_apply (c : Dev nD) (t : Fin cfg1.N) (q : Fin 10000) (j : Fin 128) (r : Fin 100000)
    (hr : r.val = t.val * 10000 + q.val) :
    (iblk1 V c 0 t : Vec Ideal S10000x128 .f32) (ix2 q j) = (V c main_v41 : S100000x128.Idx → EReal) (ix2 r j) := by
  obtain ⟨e0, e1, -, -⟩ := idx_facts t
  show V c main_v41 (((cfg1.win 0).blk t).view.emb (ix2 q j)) = V c main_v41 (ix2 r j)
  refine congrArg (V c main_v41) ?_
  funext a
  apply Fin.ext
  match a with
  | ⟨0, _⟩ => show win1_0.index t (0 : Fin 2) * 10000 + 1 * q.val = r.val; omega
  | ⟨1, _⟩ => show win1_0.index t (1 : Fin 2) * 128 + 1 * j.val = j.val; omega

/-- The row vector's block at every point is the row vector. -/
theorem blk_row_apply (c : Dev nD) (t : Fin cfg1.N) (j : Fin 128) :
    (iblk1 V c 1 t : Vec Ideal S1x128 .f32) (ix2 (0 : Fin 1) j) = (V c main_v42 : S1x128.Idx → EReal) (ix2 (0 : Fin 1) j) := by
  obtain ⟨-, -, e2, e3⟩ := idx_facts t
  show V c main_v42 (((cfg1.win 1).blk t).view.emb (ix2 (0 : Fin 1) j)) = V c main_v42 (ix2 (0 : Fin 1) j)
  refine congrArg (V c main_v42) ?_
  funext a
  apply Fin.ext
  match a with
  | ⟨0, _⟩ => show win1_1.index t (0 : Fin 2) * 1 + 1 * 0 = 0; omega
  | ⟨1, _⟩ => show win1_1.index t (1 : Fin 2) * 128 + 1 * j.val = j.val; omega

/-- Column `j` of the shifted matrix `H + B` (the row vector `B` added to every row of `H`) as a function of the row
    number, zero past the last row. -/
def shiftedCol (H : S100000x128.Idx → EReal) (B : S1x128.Idx → EReal) (j : Fin 128) (n : ℕ) : EReal :=
  if hn : n < 100000 then H (ix2 (⟨n, hn⟩ : Fin 100000) j) + B (ix2 (0 : Fin 1) j) else 0

/-- An entry of a shifted block whose row `q` is row `n` of `H` and whose row vector is `B` is the shifted matrix's entry in row `n`. -/
theorem shifted_entry (H : S100000x128.Idx → EReal) (B : S1x128.Idx → EReal) (x0 : Vec Ideal S10000x128 .f32)
    (x1 : Vec Ideal S1x128 .f32) (j : Fin 128) (n : ℕ) (hn : n < 100000) (q : Fin 10000)
    (h0 : x0 (ix2 q j) = H (ix2 (⟨n, hn⟩ : Fin 100000) j)) (h1 : x1 (ix2 (0 : Fin 1) j) = B (ix2 (0 : Fin 1) j)) :
    x0 (ix2 q j) + x1 (ix2 (0 : Fin 1) j) = shiftedCol H B j n := by
  unfold shiftedCol
  rw [dif_pos hn, h0, h1]

/-- An entry of the shifted block at point `t` (`x0`, `x1` the two blocks the body loads there) is the shifted matrix's
    entry in row `10000 t + q`. -/
theorem blk_shifted (c : Dev nD) (t : Fin cfg1.N) (q : Fin 10000) (j : Fin 128)
    (x0 : Vec Ideal S10000x128 .f32) (x1 : Vec Ideal S1x128 .f32) (e0 : x0 = iblk1 V c 0 t) (e1 : x1 = iblk1 V c 1 t) :
    x0 (ix2 q j) + x1 (ix2 (0 : Fin 1) j) = shiftedCol (V c main_v41) (V c main_v42) j (t.val * 10000 + q.val) := by
  have hN : t.val < 10 := lt_of_lt_of_eq t.isLt (show cfg1.N = 10 from N_1)
  have hr : t.val * 10000 + q.val < 100000 := by have := q.isLt; omega
  subst e0 e1
  exact shifted_entry (V c main_v41) (V c main_v42) (iblk1 V c 0 t) (iblk1 V c 1 t) j _ hr q
    (blk_matrix_apply V c t q j ⟨_, hr⟩ rfl) (blk_row_apply V c t j)

/-! ## Sums over the rows, regrouped by blocks of 10000 -/

/-- A sum over the 10000 rows of block `t`, as a sum over a range of row numbers. -/
theorem block_sum_range (f : ℕ → EReal) (t : ℕ) :
    ∑ q : Fin 10000, f (t * 10000 + q.val) = ∑ q ∈ Finset.range 10000, f (t * 10000 + q) :=
  Fin.sum_univ_eq_sum_range (fun q => f (t * 10000 + q)) 10000

/-- The rows of the first `n + 1` blocks are the rows of the first `n` blocks and the rows of block `n`. -/
theorem sum_blocks_succ (f : ℕ → EReal) (n : ℕ) :
    ∑ k ∈ Finset.range ((n + 1) * 10000), f k
      = ∑ k ∈ Finset.range (n * 10000), f k + ∑ q ∈ Finset.range 10000, f (n * 10000 + q) := by
  rw [show (n + 1) * 10000 = n * 10000 + 10000 from by omega, Finset.sum_range_add]

/-- A sum over all row numbers of a function of the shifted column is the sum over the rows of that function of the entries. -/
theorem sum_rows_range (H : S100000x128.Idx → EReal) (B : S1x128.Idx → EReal) (j : Fin 128) (φ : EReal → EReal) :
    ∑ k ∈ Finset.range 100000, φ (shiftedCol H B j k)
      = ∑ r : Fin 100000, φ (H (ix2 r j) + B (ix2 (0 : Fin 1) j)) := by
  rw [← Fin.sum_univ_eq_sum_range (fun k => φ (shiftedCol H B j k)) 100000]
  refine Finset.sum_congr rfl fun r _ => congrArg φ ?_
  unfold shiftedCol
  rw [dif_pos r.isLt]

/-! ## The accumulators after each point -/

/-- After point `n` the two accumulators hold, at column `j`, the sums of the shifted matrix's entries and of their
    squares over the rows of blocks `0 … n`: by induction on the point, the first point from zero, a later point adding
    its block's column sums to what the point before left. -/
theorem acc_eq (c : Dev nD) (j : Fin 128) : ∀ (n : ℕ) (hn : n < cfg1.N),
    (outsAt1 V c n hn).1 (ix2 (0 : Fin 1) j)
        = ∑ k ∈ Finset.range ((n + 1) * 10000), shiftedCol (V c main_v41) (V c main_v42) j k
    ∧ (outsAt1 V c n hn).2 (ix2 (0 : Fin 1) j)
        = ∑ k ∈ Finset.range ((n + 1) * 10000),
            shiftedCol (V c main_v41) (V c main_v42) j k * shiftedCol (V c main_v41) (V c main_v42) j k
  | 0, hn => by
    have hA := outsAt1_A V c ⟨0, hn⟩ rfl
    dsimp only at hA
    rw [hA]
    dsimp only
    rw [out_A_2 (F := Ideal) c (grid1.coords ⟨0, hn⟩) (ms1_0 ⟨0, hn⟩) (hs1_0 ⟨0, hn⟩) (ms1_1 ⟨0, hn⟩) (hs1_1 ⟨0, hn⟩) (ms1_2 ⟨0, hn⟩)
        (hs1_2 ⟨0, hn⟩) (ms1_3 ⟨0, hn⟩) (hs1_3 ⟨0, hn⟩) ((hcond1_0 ⟨0, hn⟩).mpr rfl) (iblk1 V c 0 ⟨0, hn⟩) (iblk1 V c 1 ⟨0, hn⟩),
      out_A_3 (F := Ideal) c (grid1.coords ⟨0, hn⟩) (ms1_0 ⟨0, hn⟩) (hs1_0 ⟨0, hn⟩) (ms1_1 ⟨0, hn⟩) (hs1_1 ⟨0, hn⟩) (ms1_2 ⟨0, hn⟩)
        (hs1_2 ⟨0, hn⟩) (ms1_3 ⟨0, hn⟩) (hs1_3 ⟨0, hn⟩) ((hcond1_0 ⟨0, hn⟩).mpr rfl) (iblk1 V c 0 ⟨0, hn⟩) (iblk1 V c 1 ⟨0, hn⟩)]
    constructor
    · refine (sum_step_apply _ _ _ j).trans ?_
      rw [zero2_apply, zero_add, sum_blocks_succ, Nat.zero_mul, Finset.range_zero, Finset.sum_empty, zero_add]
      refine (Finset.sum_congr rfl fun q _ => blk_shifted V c ⟨0, hn⟩ q j (iblk1 V c 0 ⟨0, hn⟩) (iblk1 V c 1 ⟨0, hn⟩) rfl rfl).trans ?_
      exact block_sum_range (shiftedCol (V c main_v41) (V c main_v42) j) 0
    · refine (sq_step_apply _ _ _ j).trans ?_
      rw [zero3_apply, zero_add, sum_blocks_succ, Nat.zero_mul, Finset.range_zero, Finset.sum_empty, zero_add]
      refine (Finset.sum_congr rfl fun q _ => congrArg (fun x : EReal => x * x) (blk_shifted V c ⟨0, hn⟩ q j (iblk1 V c 0 ⟨0, hn⟩) (iblk1 V c 1 ⟨0, hn⟩) rfl rfl)).trans ?_
      exact block_sum_range (fun k => shiftedCol (V c main_v41) (V c main_v42) j k * shiftedCol (V c main_v41) (V c main_v42) j k) 0
  | n + 1, hn => by
    have hN : cfg1.N = 10 := N_1
    have hB : ¬(⟨n + 1, hn⟩ : Fin cfg1.N).val % 10 = 0 := by dsimp only; omega
    obtain ⟨ih2, ih3⟩ := acc_eq c j n (Nat.lt_of_succ_lt hn)
    have hBt := outsAt1_B V c ⟨n + 1, hn⟩ hB
    dsimp only at hBt
    rw [hBt]
    dsimp only
    rw [out_B_2, out_B_3]
    constructor
    · refine (sum_step_apply _ _ _ j).trans ?_
      rw [sum_blocks_succ (shiftedCol (V c main_v41) (V c main_v42) j) (n + 1)]
      refine congrArg₂ (· + ·) ih2 ?_
      refine (Finset.sum_congr rfl fun q _ => blk_shifted V c ⟨n + 1, hn⟩ q j (iblk1 V c 0 ⟨n + 1, hn⟩) (iblk1 V c 1 ⟨n + 1, hn⟩) rfl rfl).trans ?_
      exact block_sum_range (shiftedCol (V c main_v41) (V c main_v42) j) (n + 1)
    · refine (sq_step_apply _ _ _ j).trans ?_
      rw [sum_blocks_succ (fun k => shiftedCol (V c main_v41) (V c main_v42) j k * shiftedCol (V c main_v41) (V c main_v42) j k) (n + 1)]
      refine congrArg₂ (· + ·) ih3 ?_
      refine (Finset.sum_congr rfl fun q _ => congrArg (fun x : EReal => x * x) (blk_shifted V c ⟨n + 1, hn⟩ q j (iblk1 V c 0 ⟨n + 1, hn⟩) (iblk1 V c 1 ⟨n + 1, hn⟩) rfl rfl)).trans ?_
      exact block_sum_range (fun k => shiftedCol (V c main_v41) (V c main_v42) j k * shiftedCol (V c main_v41) (V c main_v42) j k) (n + 1)

/-! ## The two output arrays after the run -/

/-- The accumulators after the last point, as contents of the two output arrays (each array is its one block). -/
abbrev sums (c : Dev nD) : Buf (Elt Ideal) ((c : Thread nD τ).loc main_v43_0) :=
  (outsAt1 V c 9 (by rw [show cfg1.N = 10 from N_1]; decide)).1
abbrev sumsq (c : Dev nD) : Buf (Elt Ideal) ((c : Thread nD τ).loc main_v43_1) :=
  (outsAt1 V c 9 (by rw [show cfg1.N = 10 from N_1]; decide)).2

/-- The one write-back of the column sums, at the last point, writes the accumulator: block (0, 0) of the [1,128] array,
    read through zero offsets, is the array. -/
theorem flushed_sums (c : Dev nD) (t : Fin cfg1.N) (hf : (cfg1.win 2).flush t = true) :
    (dat1 (F := Ideal) V c).flushed 2 t = ((cfg1.win 2).blk t).view.read (Elt Ideal) (sums V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 (F := Ideal) V c).after 2 t1_9) = _
  rw [after1_2]
  have hz' : (fun a => win1_2.index t1_9 a * main_v43_0.ty.shape.size a) = fun _ => 0 := funext fun a => by fin_cases a <;> decide
  exact (Memref.read_access_unit_zero (Elt Ideal) main_v43_0 hz' (fun a => by rw [congrFun hz' a]; simp) (sums V c)).symm

/-- The same for the column sums of squares. -/
theorem flushed_sumsq (c : Dev nD) (t : Fin cfg1.N) (hf : (cfg1.win 3).flush t = true) :
    (dat1 (F := Ideal) V c).flushed 3 t = ((cfg1.win 3).blk t).view.read (Elt Ideal) (sumsq V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 (F := Ideal) V c).after 3 t1_9) = _
  rw [after1_3]
  have hz' : (fun a => win1_3.index t1_9 a * main_v43_1.ty.shape.size a) = fun _ => 0 := funext fun a => by fin_cases a <;> decide
  exact (Memref.read_access_unit_zero (Elt Ideal) main_v43_1 hz' (fun a => by rw [congrFun hz' a]; simp) (sumsq V c)).symm

/-- So the column-sum array ends holding the accumulator after the last point (that point's block covers it). -/
theorem final_sums (c : Dev nD) : (dat1 (F := Ideal) V c).arrAt 2 cfg1.N = sums V c :=
  (dat1 (F := Ideal) V c).arrAt_eq_of_cover 2 (sums V c) (flushed_sums V c) fun i =>
    ⟨t1_9, (flush1_2 t1_9).mpr rfl, by
      show i ∈ ((View.whole main_v43_0).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 128 from by decide +kernel]; omega⟩

/-- And the sum-of-squares array likewise. -/
theorem final_sumsq (c : Dev nD) : (dat1 (F := Ideal) V c).arrAt 3 cfg1.N = sumsq V c :=
  (dat1 (F := Ideal) V c).arrAt_eq_of_cover 3 (sumsq V c) (flushed_sumsq V c) fun i =>
    ⟨t1_9, (flush1_3 t1_9).mpr rfl, by
      show i ∈ ((View.whole main_v43_1).slice (win1_3.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 128 from by decide +kernel]; omega⟩

/-- The sum down column `j` of the shifted matrix `H + B` (the row vector `B` added to every row of `H`). -/
def colSum (H : S100000x128.Idx → EReal) (B : S1x128.Idx → EReal) (j : Fin 128) : EReal :=
  ∑ r : Fin 100000, (H (ix2 r j) + B (ix2 (0 : Fin 1) j))

/-- The sum down column `j` of the squares of the shifted matrix's entries. -/
def colSumSq (H : S100000x128.Idx → EReal) (B : S1x128.Idx → EReal) (j : Fin 128) : EReal :=
  ∑ r : Fin 100000, (H (ix2 r j) + B (ix2 (0 : Fin 1) j)) * (H (ix2 r j) + B (ix2 (0 : Fin 1) j))

/-- THE COLUMN SUMS: after the run the first output array holds, at column `j`, the sum over all 100000 rows of the
    shifted matrix's entries `h + b` in that column. -/
theorem colsum (c : Dev nD) (j : Fin 128) :
    (dat1 (F := Ideal) V c).arrAt 2 cfg1.N (ix2 (0 : Fin 1) j) = colSum (V c main_v41) (V c main_v42) j := by
  refine (congrFun (final_sums V c) (ix2 (0 : Fin 1) j)).trans ?_
  refine (acc_eq V c j 9 (by rw [show cfg1.N = 10 from N_1]; decide)).1.trans ?_
  exact sum_rows_range (V c main_v41) (V c main_v42) j (fun x => x)

/-- THE COLUMN SUMS OF SQUARES: the second output array holds, at column `j`, the sum over all rows of the squares of
    those entries. -/
theorem colsumsq (c : Dev nD) (j : Fin 128) :
    (dat1 (F := Ideal) V c).arrAt 3 cfg1.N (ix2 (0 : Fin 1) j) = colSumSq (V c main_v41) (V c main_v42) j := by
  refine (congrFun (final_sumsq V c) (ix2 (0 : Fin 1) j)).trans ?_
  refine (acc_eq V c j 9 (by rw [show cfg1.N = 10 from N_1]; decide)).2.trans ?_
  exact sum_rows_range (V c main_v41) (V c main_v42) j (fun x => x * x)

end Cert.KernelIdeal.StatsRegion

end
-- ==== Proof.PointwiseRegions.lean ====
/- The two pointwise regions of the program read as whole arrays: the bias add (region 4) and the
   normalise-and-clamp (region 2). For each, the array the region's output window ends holding, entry by entry,
   as the pointwise function of the arrays the region finds at its entry: every row block is written once, by the
   grid point of the same number, with that function of the same row block of the tall operand and of the one
   row of each short operand; the ten row blocks tile the hundred thousand rows. -/
import proofs.«163066_j80083960201233_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PointwiseRegions

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem zero_offsets : (![0, 0] : Fin 2 → Nat) = fun _ => 0 := funext fun a => by fin_cases a <;> rfl

/-! ## Region 4: the bias add -/

/-- The body's stored value at row `p`, lane `q` of a block: the block's entry plus the bias row's lane `q`. -/
theorem bias_payload_apply (x0 : Vec Ideal S10000x128 .f32) (x1 : Vec Ideal S1x128 .f32) (p : Fin 10000) (q : Fin 128) :
    k4_pay1 (F := Ideal) x0 x1 (ix2 p q) = x0 (ix2 p q) + x1 (ix2 (0 : Fin 1) q) := by
  unfold k4_pay1
  refine (addf_apply _ _ _).trans ?_
  rw [shapeCast_self, shapeCast_self]
  exact congrArg (x0 (ix2 p q) + ·) (broadcastTo_1b_ab_apply x1 _ p q)

/-- The bias-added array: each entry of the tall array plus the lane's entry of the one bias row. -/
abbrev biasAdded (a : S100000x128.Idx → EReal) (b : S1x128.Idx → EReal) : S100000x128.Idx → EReal :=
  fun i => a i + b (ix2 (0 : Fin 1) (i 1))

/-- The printed index maps of region 4, decided over its ten points: the tall input's block moves with the
    output's, the bias row's block stays at the origin, the output's block is the point's number on the rows. -/
theorem bias_index_maps : ∀ t : Fin cfg4.N, win4_0.index t (0 : Fin 2) = win4_2.index t (0 : Fin 2)
    ∧ win4_0.index t (1 : Fin 2) = win4_2.index t (1 : Fin 2)
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point `t` of region 4 writes back is block `t` of the bias-added array. -/
theorem bias_flushed (c : Dev nD) (t : Fin cfg4.N) :
    (dat4 (F := Ideal) V c).flushed 2 t
      = ((cfg4.win 2).blk t).view.read (Elt Ideal) (biasAdded (V c main_v92) (V c main_v93)) := by
  show (cfg4.win 2).cut (grid4.coords t) ((dat4 V c).after 2 t) = _
  rw [after4_2]
  unfold out4_2
  rw [View.canon_unit_zero zero_offsets]
  simp only [View.ld_unit_zero (S := S10000x128) zero_offsets, View.ld_unit_zero (S := S1x128) zero_offsets]
  obtain ⟨e0, e1, e2, e3, e4, e5⟩ := bias_index_maps t
  funext y
  show k4_pay1 (F := Ideal) (iblk4 V c 0 t) (iblk4 V c 1 t) y
    = biasAdded (V c main_v92) (V c main_v93) (((cfg4.win 2).blk t).view.emb y)
  obtain ⟨p, q, rfl⟩ : ∃ (p : Fin 10000) (q : Fin 128), y = ix2 p q := ⟨y 0, y 1, eq_ix2 y⟩
  refine (bias_payload_apply _ _ p q).trans ?_
  unfold biasAdded
  refine congrArg₂ (· + ·) ?_ ?_
  · show V c main_v92 (((cfg4.win 0).blk t).view.emb (ix2 p q)) = V c main_v92 (((cfg4.win 2).blk t).view.emb (ix2 p q))
    refine congrArg (V c main_v92) ?_
    funext a; apply Fin.ext
    match a with
    | ⟨0, _⟩ => show win4_0.index t (0 : Fin 2) * 10000 + 1 * p.val = win4_2.index t (0 : Fin 2) * 10000 + 1 * p.val; omega
    | ⟨1, _⟩ => show win4_0.index t (1 : Fin 2) * 128 + 1 * q.val = win4_2.index t (1 : Fin 2) * 128 + 1 * q.val; omega
  · show V c main_v93 (((cfg4.win 1).blk t).view.emb (ix2 (0 : Fin 1) q))
      = V c main_v93 (ix2 (0 : Fin 1) ((((cfg4.win 2).blk t).view.emb (ix2 p q)) 1))
    refine congrArg (V c main_v93) ?_
    funext a; apply Fin.ext
    match a with
    | ⟨0, _⟩ => show win4_1.index t (0 : Fin 2) * 1 + 1 * 0 = 0; omega
    | ⟨1, _⟩ => show win4_1.index t (1 : Fin 2) * 128 + 1 * q.val = win4_2.index t (1 : Fin 2) * 128 + 1 * q.val; omega

/-- An entry of the array is in point `t`'s output block iff each coordinate is in the block's range on its axis. -/
theorem bias_mem_block (t : Fin cfg4.N) (i : S100000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v94).slice (win4_2.rect t)).set ↔ _
  rw [View.set_slice_whole, Rect.mem_set_unit]
  exact Iff.rfl

/-- Every entry is in some point's output block: row `r` lies in the block of point `r / 10000`. -/
theorem bias_cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have ht : (i 0).val / 10000 < cfg4.N := by show (i 0).val / 10000 < 10; omega
  refine ⟨⟨(i 0).val / 10000, ht⟩, flush4_2 _, ?_⟩
  rw [bias_mem_block]
  obtain ⟨e0, e1, e2, e3, e4, e5⟩ := bias_index_maps ⟨(i 0).val / 10000, ht⟩
  intro a
  match a with
  | ⟨0, _⟩ =>
    show win4_2.index ⟨(i 0).val / 10000, ht⟩ (0 : Fin 2) * 10000 ≤ (i 0).val ∧ (i 0).val < win4_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, ht⟩ (1 : Fin 2) * 128 ≤ (i 1).val ∧ (i 1).val < win4_2.index ⟨(i 0).val / 10000, ht⟩ (1 : Fin 2) * 128 + 128
    rw [e5]; omega

/-- The array region 4 leaves in its output window: the bias-added array. -/
theorem bias_array (c : Dev nD) :
    (dat4 (F := Ideal) V c).arrAt 2 cfg4.N = biasAdded (V c main_v92) (V c main_v93) :=
  (dat4 (F := Ideal) V c).arrAt_eq_of_cover 2 (biasAdded (V c main_v92) (V c main_v93))
    (fun t _ => bias_flushed V c t) bias_cover

/-- REGION 4, entry by entry: the tall array's entry plus the lane's entry of the bias row. -/
theorem biased (c : Dev nD) (r : Fin 100000) (j : Fin 128) :
    (dat4 (F := Ideal) V c).arrAt 2 cfg4.N (ix2 r j)
      = HAdd.hAdd (α := EReal) (β := EReal) (γ := EReal) (V c main_v92 (ix2 r j)) (V c main_v93 (ix2 (0 : Fin 1) j)) :=
  congrFun (bias_array V c) (ix2 r j)

/-! ## Region 2: normalise and clamp -/

/-- The body's stored value at row `p`, lane `q` of a block: the block's entry, shifted by the first row's lane,
    centred by the second's, scaled by the third's, and clamped below at zero. -/
theorem norm_payload_apply (x0 : Vec Ideal S10000x128 .f32) (x1 x2 x3 : Vec Ideal S1x128 .f32) (p : Fin 10000) (q : Fin 128) :
    k2_pay1 (F := Ideal) x0 x1 x2 x3 (ix2 p q)
      = max (((x0 (ix2 p q) + x1 (ix2 (0 : Fin 1) q)) - x2 (ix2 (0 : Fin 1) q)) * x3 (ix2 (0 : Fin 1) q)) (0 : EReal) := by
  unfold k2_pay1
  refine (maximumf_apply _ _ _).trans ?_
  rw [shapeCast_self, shapeCast_self, shapeCast_self, shapeCast_self]
  refine congrArg₂ max ?_ Ideal.ofBits_zero_f32
  refine (mulf_apply _ _ _).trans ?_
  refine congrArg₂ (· * ·) ?_ (broadcastTo_1b_ab_apply x3 _ p q)
  refine (subf_apply _ _ _).trans ?_
  refine congrArg₂ (· - ·) ?_ (broadcastTo_1b_ab_apply x2 _ p q)
  refine (addf_apply _ _ _).trans ?_
  exact congrArg (x0 (ix2 p q) + ·) (broadcastTo_1b_ab_apply x1 _ p q)

/-- The normalised and clamped array: each entry of the tall array, shifted, centred and scaled by the lane's
    entries of the three rows, and clamped below at zero. -/
abbrev normClamped (a : S100000x128.Idx → EReal) (s m g : S1x128.Idx → EReal) : S100000x128.Idx → EReal :=
  fun i => max (((a i + s (ix2 (0 : Fin 1) (i 1))) - m (ix2 (0 : Fin 1) (i 1))) * g (ix2 (0 : Fin 1) (i 1))) (0 : EReal)

/-- The printed index maps of region 2, decided over its ten points: the tall input's block moves with the
    output's, each row's block stays at the origin, the output's block is the point's number on the rows. -/
theorem norm_index_maps : ∀ t : Fin cfg2.N, win2_0.index t (0 : Fin 2) = win2_4.index t (0 : Fin 2)
    ∧ win2_0.index t (1 : Fin 2) = win2_4.index t (1 : Fin 2)
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

/-- What point `t` of region 2 writes back is block `t` of the normalised and clamped array. -/
theorem norm_flushed (c : Dev nD) (t : Fin cfg2.N) :
    (dat2 (F := Ideal) V c).flushed 4 t
      = ((cfg2.win 4).blk t).view.read (Elt Ideal)
          (normClamped (V c main_v41) (V c main_v53) (V c main_v45) (V c main_v52)) := by
  show (cfg2.win 4).cut (grid2.coords t) ((dat2 V c).after 4 t) = _
  rw [after2_4]
  unfold out2_4
  rw [View.canon_unit_zero zero_offsets]
  simp only [View.ld_unit_zero (S := S10000x128) zero_offsets, View.ld_unit_zero (S := S1x128) zero_offsets]
  obtain ⟨e0, e1, e2, e3, e4, e5, e6, e7, e8, e9⟩ := norm_index_maps t
  funext y
  show k2_pay1 (F := Ideal) (iblk2 V c 0 t) (iblk2 V c 1 t) (iblk2 V c 2 t) (iblk2 V c 3 t) y
    = normClamped (V c main_v41) (V c main_v53) (V c main_v45) (V c main_v52) (((cfg2.win 4).blk t).view.emb y)
  obtain ⟨p, q, rfl⟩ : ∃ (p : Fin 10000) (q : Fin 128), y = ix2 p q := ⟨y 0, y 1, eq_ix2 y⟩
  refine (norm_payload_apply _ _ _ _ p q).trans ?_
  refine congrArg₂ max ?_ rfl
  refine congrArg₂ (· * ·) (congrArg₂ (· - ·) (congrArg₂ (· + ·) ?_ ?_) ?_) ?_
  · show V c main_v41 (((cfg2.win 0).blk t).view.emb (ix2 p q)) = V c main_v41 (((cfg2.win 4).blk t).view.emb (ix2 p q))
    refine congrArg (V c main_v41) ?_
    funext a; apply Fin.ext
    match a with
    | ⟨0, _⟩ => show win2_0.index t (0 : Fin 2) * 10000 + 1 * p.val = win2_4.index t (0 : Fin 2) * 10000 + 1 * p.val; omega
    | ⟨1, _⟩ => show win2_0.index t (1 : Fin 2) * 128 + 1 * q.val = win2_4.index t (1 : Fin 2) * 128 + 1 * q.val; omega
  · show V c main_v53 (((cfg2.win 1).blk t).view.emb (ix2 (0 : Fin 1) q))
      = V c main_v53 (ix2 (0 : Fin 1) ((((cfg2.win 4).blk t).view.emb (ix2 p q)) 1))
    refine congrArg (V c main_v53) ?_
    funext a; apply Fin.ext
    match a with
    | ⟨0, _⟩ => show win2_1.index t (0 : Fin 2) * 1 + 1 * 0 = 0; omega
    | ⟨1, _⟩ => show win2_1.index t (1 : Fin 2) * 128 + 1 * q.val = win2_4.index t (1 : Fin 2) * 128 + 1 * q.val; omega
  · show V c main_v45 (((cfg2.win 2).blk t).view.emb (ix2 (0 : Fin 1) q))
      = V c main_v45 (ix2 (0 : Fin 1) ((((cfg2.win 4).blk t).view.emb (ix2 p q)) 1))
    refine congrArg (V c main_v45) ?_
    funext a; apply Fin.ext
    match a with
    | ⟨0, _⟩ => show win2_2.index t (0 : Fin 2) * 1 + 1 * 0 = 0; omega
    | ⟨1, _⟩ => show win2_2.index t (1 : Fin 2) * 128 + 1 * q.val = win2_4.index t (1 : Fin 2) * 128 + 1 * q.val; omega
  · show V c main_v52 (((cfg2.win 3).blk t).view.emb (ix2 (0 : Fin 1) q))
      = V c main_v52 (ix2 (0 : Fin 1) ((((cfg2.win 4).blk t).view.emb (ix2 p q)) 1))
    refine congrArg (V c main_v52) ?_
    funext a; apply Fin.ext
    match a with
    | ⟨0, _⟩ => show win2_3.index t (0 : Fin 2) * 1 + 1 * 0 = 0; omega
    | ⟨1, _⟩ => show win2_3.index t (1 : Fin 2) * 128 + 1 * q.val = win2_4.index t (1 : Fin 2) * 128 + 1 * q.val; omega

/-- An entry of the array is in point `t`'s output block iff each coordinate is in the block's range on its axis. -/
theorem norm_mem_block (t : Fin cfg2.N) (i : S100000x128.Idx) :
    i ∈ ((cfg2.win 4).blk t).view.set ↔ ∀ a : Fin 2, win2_4.index t a * S10000x128.size a ≤ (i a).val ∧ (i a).val < win2_4.index t a * S10000x128.size a + S10000x128.size a := by
  show i ∈ ((View.whole main_v54).slice (win2_4.rect t)).set ↔ _
  rw [View.set_slice_whole, Rect.mem_set_unit]
  exact Iff.rfl

/-- Every entry is in some point's output block: row `r` lies in the block of point `r / 10000`. -/
theorem norm_cover (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have ht : (i 0).val / 10000 < cfg2.N := by show (i 0).val / 10000 < 10; omega
  refine ⟨⟨(i 0).val / 10000, ht⟩, flush2_4 _, ?_⟩
  rw [norm_mem_block]
  obtain ⟨e0, e1, e2, e3, e4, e5, e6, e7, e8, e9⟩ := norm_index_maps ⟨(i 0).val / 10000, ht⟩
  intro a
  match a with
  | ⟨0, _⟩ =>
    show win2_4.index ⟨(i 0).val / 10000, ht⟩ (0 : Fin 2) * 10000 ≤ (i 0).val ∧ (i 0).val < win2_4.index ⟨(i 0).val / 10000, ht⟩ (0 : Fin 2) * 10000 + 10000
    rw [e8]; show (i 0).val / 10000 * 10000 ≤ (i 0).val ∧ (i 0).val < (i 0).val / 10000 * 10000 + 10000; omega
  | ⟨1, _⟩ =>
    show win2_4.index ⟨(i 0).val / 10000, ht⟩ (1 : Fin 2) * 128 ≤ (i 1).val ∧ (i 1).val < win2_4.index ⟨(i 0).val / 10000, ht⟩ (1 : Fin 2) * 128 + 128
    rw [e9]; omega

/-- The array region 2 leaves in its output window: the normalised and clamped array. -/
theorem norm_array (c : Dev nD) :
    (dat2 (F := Ideal) V c).arrAt 4 cfg2.N
      = normClamped (V c main_v41) (V c main_v53) (V c main_v45) (V c main_v52) :=
  (dat2 (F := Ideal) V c).arrAt_eq_of_cover 4 (normClamped (V c main_v41) (V c main_v53) (V c main_v45) (V c main_v52))
    (fun t _ => norm_flushed V c t) norm_cover

/-- REGION 2, entry by entry: the tall array's entry plus the lane's entry of the first row, minus that of the
    second, times that of the third, clamped below at zero. -/
theorem normalised (c : Dev nD) (r : Fin 100000) (j : Fin 128) :
    (dat2 (F := Ideal) V c).arrAt 4 cfg2.N (ix2 r j)
      = max (α := EReal)
          (HMul.hMul (α := EReal) (β := EReal) (γ := EReal)
            (HSub.hSub (α := EReal) (β := EReal) (γ := EReal)
              (HAdd.hAdd (α := EReal) (β := EReal) (γ := EReal) (V c main_v41 (ix2 r j)) (V c main_v53 (ix2 (0 : Fin 1) j)))
              (V c main_v45 (ix2 (0 : Fin 1) j)))
            (V c main_v52 (ix2 (0 : Fin 1) j)))
          (0 : EReal) :=
  congrFun (norm_array V c) (ix2 r j)

end Cert.KernelIdeal.PointwiseRegions

end
-- ==== Proof.FirstLayer.lean ====
/-
  The first half of the kernel program's value: the normalised hidden layer.

  Along the program's chain of host stretches and regions: the first region multiplies the node features by the
  transposed first weight matrix; the host aggregates the product along the edges; the second region sums the
  aggregated features plus the bias, and their squares, down every column; the host turns the two sums into the column
  mean and the reciprocal standard deviation; the third region subtracts the mean, scales, and clamps at zero. Entry by
  entry that is the normalisation with the variance spelt as the mean of the squares minus the squared mean, which for
  real entries is the network's normalisation stage.
-/
import proofs.«163066_j80083960201233_1_alg».proof.Proof.Args
import proofs.«163066_j80083960201233_1_alg».proof.Proof.Spec
import proofs.«163066_j80083960201233_1_alg».proof.Proof.NormForms
import proofs.«163066_j80083960201233_1_alg».proof.Proof.ConvReal
import proofs.«163066_j80083960201233_1_alg».proof.Proof.LibRealArrays
import proofs.«163066_j80083960201233_1_alg».proof.Proof.Gen.KernelIdeal.Frame
import proofs.«163066_j80083960201233_1_alg».proof.Proof.Persist
import proofs.«163066_j80083960201233_1_alg».proof.Proof.HostStretches
import proofs.«163066_j80083960201233_1_alg».proof.Proof.HostMoments
import proofs.«163066_j80083960201233_1_alg».proof.Proof.MatmulRegions
import proofs.«163066_j80083960201233_1_alg».proof.Proof.StatsRegion
import proofs.«163066_j80083960201233_1_alg».proof.Proof.PointwiseRegions

noncomputable section

namespace Cert.KernelIdeal.FirstLayer

open Cert.KernelIdeal Cert.KernelIdeal.Gen Cert.KernelIdeal.Args Cert.GcnNet Cert.RealArrays Idealize.ShloMosaic
  Idealize.ShloMosaic.TcCoe Idealize.ShloMosaic.ValueIdx Idealize.SL.Sem

variable (m : (ℓ : Loc nD τ sig) → Buf (Elt Ideal) ℓ) (ρ : Dev nD → PrngReg) (c : Dev nD)

/-- The aggregated first layer before the bias: the aggregation along the edges of the features times the transposed
    first weight matrix. -/
abbrev agg : Nodes := conv (dense (a0 m c) (a3 m c)) (a1 m c) (a2 m c)

/-! ## Up to region 0's exit -/

/-- At region 0's entry the second operand is the transposed first weight matrix. -/
theorem weightT_in : W1 m ρ c (Proc.devRef .tc main_v4) = Cert.ReferenceIdeal.Read.val_main_v4 (F := Ideal) (a3 m c) :=
  HostStretches.weightsT0 (W0 m ρ c)

/-- Region 0 leaves the dense layer's product. -/
theorem product_out : W2 m ρ c (Proc.devRef .tc main_v5) = dense (a0 m c) (a3 m c) := by
  have e : MatmulRegions.product (V1 m ρ c main_arg0) (V1 m ρ c main_v4)
      = MatmulRegions.product (a0 m c) (Cert.ReferenceIdeal.Read.val_main_v4 (F := Ideal) (a3 m c)) :=
    congrArg₂ MatmulRegions.product (Persist.W1_arg0 m ρ c) (weightT_in m ρ c)
  exact (W2_arr m ρ c 2).trans ((MatmulRegions.final0 (V1 m ρ) c).trans (e.trans rfl))

/-- The edge sources and targets at region 0's exit are the two rows of the edge list. -/
theorem sources_out : W2 m ρ c (Proc.devRef .tc main_v1) = Cert.ReferenceIdeal.Read.val_main_v1 (F := Ideal) (a1 m c) :=
  (Persist.W2_v1 m ρ c).trans (HostStretches.sources0 (W0 m ρ c))
theorem targets_out : W2 m ρ c (Proc.devRef .tc main_v3) = Cert.ReferenceIdeal.Read.val_main_v3 (F := Ideal) (a1 m c) :=
  (Persist.W2_v3 m ρ c).trans (HostStretches.targets0 (W0 m ρ c))

/-! ## Region 1's entry -/

/-- The host aggregates the product along the edges. -/
theorem agg_in : W5 m ρ c (Proc.devRef .tc main_v41) = agg m c :=
  HostStretches.aggregated1 (W2 m ρ c) (dense (a0 m c) (a3 m c)) (a1 m c) (a2 m c) (sources_out m ρ c) (targets_out m ρ c)
    (Persist.W2_arg2 m ρ c) (product_out m ρ c)

/-- The bias as a one-row array. -/
theorem bias_in (j : Fin 128) : W5 m ρ c (Proc.devRef .tc main_v42) (ix2 (0 : Fin 1) j) = a4 m c (ix1 j) :=
  (HostMoments.bias_row1 (W2 m ρ c) j).trans (congrFun (Persist.W2_arg4 m ρ c) (ix1 j))

/-! ## Region 1's exit: the two column sums -/

theorem colSum_eq (j : Fin 128) :
    StatsRegion.colSum (V5 m ρ c main_v41) (V5 m ρ c main_v42) j = kSum (agg m c) (a4 m c) j := by
  unfold StatsRegion.colSum kSum
  exact Finset.sum_congr rfl fun r _ =>
    congrArg₂ (fun x y : EReal => x + y) (congrFun (agg_in m ρ c) (ix2 r j)) (bias_in m ρ c j)

theorem colSumSq_eq (j : Fin 128) :
    StatsRegion.colSumSq (V5 m ρ c main_v41) (V5 m ρ c main_v42) j = kSumSq (agg m c) (a4 m c) j := by
  unfold StatsRegion.colSumSq kSumSq
  exact Finset.sum_congr rfl fun r _ =>
    congrArg₂ (fun x y : EReal => (x + y) * (x + y)) (congrFun (agg_in m ρ c) (ix2 r j)) (bias_in m ρ c j)

theorem sum_out (j : Fin 128) : W6 m ρ c (Proc.devRef .tc main_v43_0) (ix2 (0 : Fin 1) j) = kSum (agg m c) (a4 m c) j :=
  (congrFun (W6_arr m ρ c 2) (ix2 (0 : Fin 1) j)).trans ((StatsRegion.colsum (V5 m ρ) c j).trans (colSum_eq m ρ c j))

theorem sumSq_out (j : Fin 128) : W6 m ρ c (Proc.devRef .tc main_v43_1) (ix2 (0 : Fin 1) j) = kSumSq (agg m c) (a4 m c) j :=
  (congrFun (W6_arr m ρ c 3) (ix2 (0 : Fin 1) j)).trans ((StatsRegion.colsumsq (V5 m ρ) c j).trans (colSumSq_eq m ρ c j))

/-! ## Region 2's entry -/

/-- The aggregated features reach region 2 as region 1 read them. -/
theorem agg_in2 : W7 m ρ c (Proc.devRef .tc main_v41) = agg m c :=
  (Persist.W7_v41 m ρ c).trans ((Persist.W6_v41 m ρ c).trans (agg_in m ρ c))

theorem mean_in (j : Fin 128) :
    W7 m ρ c (Proc.devRef .tc main_v45) (ix2 (0 : Fin 1) j) = Ideal.div (kSum (agg m c) (a4 m c) j) nCount :=
  (HostMoments.mean_at (W6 m ρ c) j).trans
    (congrArg (fun s : EReal => Ideal.div s (Ideal.ofBits .f32 0x47C35000#32)) (sum_out m ρ c j))

theorem invstd_in (j : Fin 128) :
    W7 m ρ c (Proc.devRef .tc main_v52) (ix2 (0 : Fin 1) j)
      = Ideal.rsqrt ((Ideal.div (kSumSq (agg m c) (a4 m c) j) nCount
          - Ideal.div (kSum (agg m c) (a4 m c) j) nCount * Ideal.div (kSum (agg m c) (a4 m c) j) nCount) + epsWord) :=
  (HostMoments.invstd_at (W6 m ρ c) j).trans
    (congrArg₂ (fun s q : EReal => Ideal.rsqrt ((Ideal.div q (Ideal.ofBits .f32 0x47C35000#32)
        - Ideal.div s (Ideal.ofBits .f32 0x47C35000#32) * Ideal.div s (Ideal.ofBits .f32 0x47C35000#32))
        + Ideal.ofBits .f32 0x3727C5AC#32)) (sum_out m ρ c j) (sumSq_out m ρ c j))

theorem bias_in2 (j : Fin 128) : W7 m ρ c (Proc.devRef .tc main_v53) (ix2 (0 : Fin 1) j) = a4 m c (ix1 j) :=
  (HostMoments.bias_row2 (W6 m ρ c) j).trans (congrFun (Persist.W6_arg4 m ρ c) (ix1 j))

/-! ## Region 2's exit -/

/-- Entry by entry, region 2 leaves the normalisation with the variance as the mean of the squares minus the squared
    mean. -/
theorem hidden_at (r : Fin 100000) (j : Fin 128) :
    W8 m ρ c (Proc.devRef .tc main_v54) (ix2 r j) = kEntry (agg m c) (a4 m c) r j := by
  refine (congrFun (W8_arr m ρ c 4) (ix2 r j)).trans ((PointwiseRegions.normalised (V7 m ρ) c r j).trans ?_)
  show _ = max (((agg m c (ix2 r j) + a4 m c (ix1 j)) - Ideal.div (kSum (agg m c) (a4 m c) j) nCount)
      * Ideal.rsqrt ((Ideal.div (kSumSq (agg m c) (a4 m c) j) nCount
          - Ideal.div (kSum (agg m c) (a4 m c) j) nCount * Ideal.div (kSum (agg m c) (a4 m c) j) nCount) + epsWord)) (0 : EReal)
  exact congrArg₂ (fun x y : EReal => max x y)
    (congrArg₂ (fun x y : EReal => x * y)
      (congrArg₂ (fun x y : EReal => x - y)
        (congrArg₂ (fun x y : EReal => x + y) (congrFun (agg_in2 m ρ c) (ix2 r j)) (bias_in2 m ρ c j))
        (mean_in m ρ c j))
      (invstd_in m ρ c j))
    rfl

/-- The normalised hidden layer: the network's normalisation stage of the aggregated first layer plus the bias. -/
theorem hidden (h0 : AllReal (a0 m c)) (h2 : AllReal (a2 m c)) (h3 : AllReal (a3 m c)) (h4 : AllReal (a4 m c)) :
    W8 m ρ c (Proc.devRef .tc main_v54)
      = bnRelu (addf (conv (dense (a0 m c) (a3 m c)) (a1 m c) (a2 m c)) (rowsOf (a4 m c))) := by
  funext i
  obtain ⟨r, j, rfl⟩ : ∃ (r : Fin 100000) (j : Fin 128), i = ix2 r j := ⟨i 0, i 1, eq_ix2 i⟩
  exact (hidden_at m ρ c r j).trans
    (bn_bridge (agg m c) (a4 m c) (conv_real _ _ _ (dense_real _ _ h0 h3) h2) h4 r j)

end Cert.KernelIdeal.FirstLayer

end
-- ==== Proof.SecondLayer.lean ====
/-
  The second half of the network as the kernel program computes it.

  From the normalised features H₂ the program forms the second dense layer's product H₂ · W₅ᵀ (a row-tiled matrix
  product against the transposed weight matrix), aggregates it along the edges with the same edge list and edge
  weights as the first layer (the one function `conv`), and adds the second bias to every row. Each step is read
  at the buffers the step before left: a buffer a step does not write holds what it held, a region's output array holds
  what its write-backs leave, and a host stretch is a function of the buffers it finds.
-/
import proofs.«163066_j80083960201233_1_alg».proof.Proof.Gen.KernelIdeal.Frame
import proofs.«163066_j80083960201233_1_alg».proof.Proof.Args
import proofs.«163066_j80083960201233_1_alg».proof.Proof.Spec
import proofs.«163066_j80083960201233_1_alg».proof.Proof.NormForms
import proofs.«163066_j80083960201233_1_alg».proof.Proof.Persist
import proofs.«163066_j80083960201233_1_alg».proof.Proof.HostStretches
import proofs.«163066_j80083960201233_1_alg».proof.Proof.HostMoments
import proofs.«163066_j80083960201233_1_alg».proof.Proof.MatmulRegions
import proofs.«163066_j80083960201233_1_alg».proof.Proof.PointwiseRegions
import Idealize.ShloMosaic.Lib.ValueIdx

noncomputable section

namespace Cert.KernelIdeal.SecondLayer

open Cert.KernelIdeal Cert.KernelIdeal.Gen Cert.KernelIdeal.Args Cert.GcnNet Idealize.ShloMosaic Idealize.ShloMosaic.TcCoe
open Idealize.ShloMosaic.ValueIdx Idealize.SL.Sem

variable (m : (ℓ : Loc nD τ sig) → Buf (Elt Ideal) ℓ) (ρ : Dev nD → PrngReg) (c : Dev nD)

/-! ## The second dense layer -/

/-- The matrix product's left operand: the normalised features pass the transposition of the weights unchanged. -/
theorem left_operand (H2 : Nodes) (h8 : W8 m ρ c (Proc.devRef .tc main_v54) = H2) :
    W9 m ρ c (Proc.devRef .tc main_v54) = H2 :=
  (Persist.W9_v54 m ρ c).trans h8

/-- Its right operand: the second weight matrix, transposed. -/
theorem right_operand :
    W9 m ρ c (Proc.devRef .tc main_v55) = Cert.ReferenceIdeal.Read.val_main_v65 (F := Ideal) (a5 m c) :=
  (HostMoments.weightsT3 (W8 m ρ c)).trans
    (congrArg (Cert.ReferenceIdeal.Read.val_main_v65 (F := Ideal)) (Persist.W8_arg5 m ρ c))

/-- The product the fourth launch leaves: H₂ · W₅ᵀ. -/
theorem second_product (H2 : Nodes) (h8 : W8 m ρ c (Proc.devRef .tc main_v54) = H2) :
    W10 m ρ c (Proc.devRef .tc main_v56) = dense H2 (a5 m c) := by
  refine (W10_arr m ρ c 2).trans ?_
  refine (MatmulRegions.final3 (V9 m ρ) c).trans ?_
  refine (congrArg₂ MatmulRegions.product (left_operand m ρ c H2 h8) (right_operand m ρ c)).trans ?_
  rfl

/-! ## The aggregation along the edges -/

/-- The edge sources are still the first row of the edge list … -/
theorem sources_kept :
    W10 m ρ c (Proc.devRef .tc main_v1) = Cert.ReferenceIdeal.Read.val_main_v1 (F := Ideal) (a1 m c) :=
  (Persist.W10_v1 m ρ c).trans (HostStretches.sources0 (W0 m ρ c))

/-- … and the edge destinations its second row. -/
theorem targets_kept :
    W10 m ρ c (Proc.devRef .tc main_v3) = Cert.ReferenceIdeal.Read.val_main_v3 (F := Ideal) (a1 m c) :=
  (Persist.W10_v3 m ρ c).trans (HostStretches.targets0 (W0 m ρ c))

/-- The aggregation of the second product along the edges. -/
theorem aggregated (H2 : Nodes) (h8 : W8 m ρ c (Proc.devRef .tc main_v54) = H2) :
    W13 m ρ c (Proc.devRef .tc main_v92) = conv (dense H2 (a5 m c)) (a1 m c) (a2 m c) :=
  HostStretches.aggregated4 (W10 m ρ c) (dense H2 (a5 m c)) (a1 m c) (a2 m c) (sources_kept m ρ c) (targets_kept m ρ c)
    (Persist.W10_arg2 m ρ c) (second_product m ρ c H2 h8)

/-- The second bias laid out as one row. -/
theorem bias_row (j : Fin 128) :
    W13 m ρ c (Proc.devRef .tc main_v93) (ix2 (0 : Fin 1) j) = a6 m c (ix1 j) :=
  (HostMoments.bias_row4 (W10 m ρ c) j).trans (congrFun (Persist.W10_arg6 m ρ c) (ix1 j))

/-! ## The bias add -/

/-- THE SECOND HALF: from the normalised features H₂, the program's result array is the aggregation of H₂ · W₅ᵀ along
    the edges plus the second bias on every row. -/
theorem result (H2 : Nodes) (h8 : W8 m ρ c (Proc.devRef .tc main_v54) = H2) :
    W14 m ρ c (Proc.devRef .tc main_v94) = addf (conv (dense H2 (a5 m c)) (a1 m c) (a2 m c)) (rowsOf (a6 m c)) := by
  refine funext fun i => ?_
  obtain ⟨r, j, rfl⟩ : ∃ (r : Fin 100000) (j : Fin 128), i = ix2 r j := ⟨i 0, i 1, eq_ix2 i⟩
  refine (congrFun (W14_arr m ρ c 2) (ix2 r j)).trans ?_
  refine (PointwiseRegions.biased (V13 m ρ) c r j).trans ?_
  refine Eq.trans ?_ (addf_apply (conv (dense H2 (a5 m c)) (a1 m c) (a2 m c)) (rowsOf (a6 m c)) (ix2 r j)).symm
  exact congrArg₂ (fun x y : EReal => x + y) (congrFun (aggregated m ρ c H2 h8) (ix2 r j))
    ((bias_row m ρ c j).trans (rowsOf_apply (a6 m c) r j).symm)

end Cert.KernelIdeal.SecondLayer

end
-- ==== Proof.lean ====
/-
  The certificate: a two-layer graph convolution network in five kernel launches among host operations, against its
  plain array reference, equal at the exact extended reals for finite inputs.

  Both programs compute out = conv(bnRelu(conv(x · W0ᵀ) + b0) · W1ᵀ) + b1, where conv is the degree-normalised
  aggregation along the edges (the same host operations in both programs, carried as one function and never opened),
  the products are sums over the 128 channels (the kernel's in row blocks of 10000 rows, the reference's whole), and
  bnRelu is batch normalisation over the node axis followed by a positive part. The one place where the programs differ
  in arithmetic is the variance: the kernel accumulates Σ t and Σ t² over the ten row blocks and takes
  Σ t² / n − (Σ t / n)², the reference takes Σ (t − μ)² / n. These agree for real t — and every t is real: the inputs
  are finite by the precondition, and sums, products, gathers, scatter-adds and the guarded reciprocal square root
  keep real arrays real — but not at an infinite entry, which is where the precondition is used.

  The three frames are the generated ones (the reference's is its generated run with the result dropped); the ideal
  pass rewrote nothing, so `preserves` is trivial.
-/
import proofs.«163066_j80083960201233_1_alg».proof.Defs
import proofs.«163066_j80083960201233_1_alg».proof.Proof.Gen.Kernel
import proofs.«163066_j80083960201233_1_alg».proof.Proof.Gen.Kernel.Skeleton
import proofs.«163066_j80083960201233_1_alg».proof.Proof.Gen.Kernel.Launch
import proofs.«163066_j80083960201233_1_alg».proof.Proof.Gen.Kernel.Points
import proofs.«163066_j80083960201233_1_alg».proof.Proof.Gen.Kernel.Frame
import proofs.«163066_j80083960201233_1_alg».proof.Proof.Gen.KernelIdeal
import proofs.«163066_j80083960201233_1_alg».proof.Proof.Gen.KernelIdeal.Skeleton
import proofs.«163066_j80083960201233_1_alg».proof.Proof.Gen.KernelIdeal.Launch
import proofs.«163066_j80083960201233_1_alg».proof.Proof.Gen.KernelIdeal.Points
import proofs.«163066_j80083960201233_1_alg».proof.Proof.Gen.KernelIdeal.Frame
import proofs.«163066_j80083960201233_1_alg».proof.Proof.Gen.ReferenceIdeal
import proofs.«163066_j80083960201233_1_alg».proof.Proof.Gen.ReferenceIdeal.Run
import proofs.«163066_j80083960201233_1_alg».proof.Proof.Gen.ReferenceIdeal.Read
import proofs.«163066_j80083960201233_1_alg».proof.Proof.Gen.Pre_finite_inputs
import proofs.«163066_j80083960201233_1_alg».proof.Proof.Spec
import proofs.«163066_j80083960201233_1_alg».proof.Proof.Args
import proofs.«163066_j80083960201233_1_alg».proof.Proof.KernelRun
import proofs.«163066_j80083960201233_1_alg».proof.Proof.FiniteArgs
import proofs.«163066_j80083960201233_1_alg».proof.Proof.FirstLayer
import proofs.«163066_j80083960201233_1_alg».proof.Proof.SecondLayer
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program's result is the network of its arguments: the first half up to the normalised hidden layer
    (where finiteness of the inputs is used), then the second. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W14 m ρ c (Proc.devRef .tc Cert.KernelIdeal.main_v94)
      = Cert.GcnNet.net (Cert.KernelIdeal.Args.a0 m c) (Cert.KernelIdeal.Args.a1 m c) (Cert.KernelIdeal.Args.a2 m c)
          (Cert.KernelIdeal.Args.a3 m c) (Cert.KernelIdeal.Args.a4 m c) (Cert.KernelIdeal.Args.a5 m c) (Cert.KernelIdeal.Args.a6 m c) := by
  obtain ⟨h0, h2, h3, h4, -, -⟩ := Cert.KernelIdeal.FiniteArgs.args_real m hpre c
  exact Cert.KernelIdeal.SecondLayer.result m ρ c _ (Cert.KernelIdeal.FirstLayer.hidden m ρ c h0 h2 h3 h4)

theorem algebraic : Cert.algebraic_KernelIdeal_ReferenceIdeal := by
  intro m ρ m' ρ' hpre hagree
  refine ⟨fun c => Cert.GcnNet.net (Cert.KernelIdeal.Args.a0 m c) (Cert.KernelIdeal.Args.a1 m c) (Cert.KernelIdeal.Args.a2 m c)
      (Cert.KernelIdeal.Args.a3 m c) (Cert.KernelIdeal.Args.a4 m c) (Cert.KernelIdeal.Args.a5 m c) (Cert.KernelIdeal.Args.a6 m c), ?_, ?_⟩
  · exact (θ_run Cert.KernelIdeal.defs _ _).mono (fun r h c => ⟨(h c).1.trans (kernel_value m ρ hpre c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v105_eq, (hagree c).1, (hagree c).2.1, (hagree c).2.2.1, (hagree c).2.2.2.1,
      (hagree c).2.2.2.2.1, (hagree c).2.2.2.2.2.1, (hagree c).2.2.2.2.2.2]
    exact Cert.GcnNet.reference_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
